-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S65536x128 : Shape := ⟨2, ![65536, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_

variable [Facts]

def fn_part1 {F : FTy → Type} [FloatOps F] (main_arg4 : FVec F S65536x128 .f32) (main_arg5 : FVec F S65536x128 .f32) (main_v13 : IVec S_ 1) (main_v16 : IVec S65536x128 1) : IVec S_ 1 :=
  let main_c_5 : IVec S_ 1 := constantI S_ 1 1#1
  let main_v17 : IVec S_ 1 := (fun x v => Host.reduce IntOp.andi x v reducesTo_S65536x128_S_d0_1 h_S_) main_v16 main_c_5
  let main_v18 : IVec S_ 1 := andi main_v13 main_v17
  let main_v19 : FVec F S65536x128 .f32 := Host.absf main_arg4
  let main_cst_6 : FVec F S_ .f32 := constant S_ .f32 0x7F800000#32
  let main_v20 : FVec F S65536x128 .f32 := broadcastInDim S65536x128 ![] bcast_S_S65536x128 main_cst_6
  let main_v21 : IVec S65536x128 1 := cmpf .olt main_v19 main_v20
  let main_c_7 : IVec S_ 1 := constantI S_ 1 1#1
  let main_v22 : IVec S_ 1 := (fun x v => Host.reduce IntOp.andi x v reducesTo_S65536x128_S_d0_1 h_S_) main_v21 main_c_7
  let main_v23 : IVec S_ 1 := andi main_v18 main_v22
  let main_v24 : FVec F S65536x128 .f32 := Host.absf main_arg5
  let main_cst_8 : FVec F S_ .f32 := constant S_ .f32 0x7F800000#32
  let main_v25 : FVec F S65536x128 .f32 := broadcastInDim S65536x128 ![] bcast_S_S65536x128 main_cst_8
  let main_v26 : IVec S65536x128 1 := cmpf .olt main_v24 main_v25
  let main_c_9 : IVec S_ 1 := constantI S_ 1 1#1
  let main_v27 : IVec S_ 1 := (fun x v => Host.reduce IntOp.andi x v reducesTo_S65536x128_S_d0_1 h_S_) main_v26 main_c_9
  let main_v28 : IVec S_ 1 := andi main_v23 main_v27
  main_v28

def fn {F : FTy → Type} [FloatOps F] (main_arg0 : FVec F S2048x128 .f32) (main_arg1 : FVec F S2048x128 .f32) (main_arg2 : FVec F S2048x128 .f32) (main_arg3 : FVec F S65536x128 .f32) (main_arg4 : FVec F S65536x128 .f32) (main_arg5 : FVec F S65536x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S65536x128 .f32 := Host.absf main_arg3
  let main_cst_4 : FVec F S_ .f32 := constant S_ .f32 0x7F800000#32
  let main_v15 : FVec F S65536x128 .f32 := broadcastInDim S65536x128 ![] bcast_S_S65536x128 main_cst_4
  let main_v16 : IVec S65536x128 1 := cmpf .olt main_v14 main_v15
  fn_part1 (F := F) main_arg4 main_arg5 main_v13 main_v16
-- ==== Kernel.lean ====
abbrev S2048x128 : Shape := ⟨2, ![2048, 128]⟩
abbrev S65536x128 : Shape := ⟨2, ![65536, 128]⟩
abbrev S_ : Shape := ⟨0, ![]⟩
abbrev S65536 : Shape := ⟨1, ![65536]⟩
abbrev S1x65536 : Shape := ⟨2, ![1, 65536]⟩
abbrev S2048x1 : Shape := ⟨2, ![2048, 1]⟩
abbrev S1024x128 : Shape := ⟨2, ![1024, 128]⟩
abbrev S1x1024 : Shape := ⟨2, ![1, 1024]⟩
abbrev S1024x1 : Shape := ⟨2, ![1024, 1]⟩
abbrev S1024 : Shape := ⟨1, ![1024]⟩
abbrev S1024x1024 : Shape := ⟨2, ![1024, 1024]⟩
abbrev S2048 : Shape := ⟨1, ![2048]⟩

abbrev nBuf : Space → Nat
  | .hbm => 23
  | .vmem => 17
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S65536x128, .f32⟩
  | .hbm, ⟨4, _⟩ => ⟨S65536x128, .f32⟩
  | .hbm, ⟨5, _⟩ => ⟨S65536x128, .f32⟩
  | .hbm, ⟨6, _⟩ => ⟨S65536x128, .bf16⟩
  | .hbm, ⟨7, _⟩ => ⟨S65536x128, .bf16⟩
  | .hbm, ⟨8, _⟩ => ⟨S65536x128, .bf16⟩
  | .hbm, ⟨9, _⟩ => ⟨S65536x128, .f32⟩
  | .hbm, ⟨10, _⟩ => ⟨S_, .f32⟩
  | .hbm, ⟨11, _⟩ => ⟨S65536, .f32⟩
  | .hbm, ⟨12, _⟩ => ⟨S65536x128, .f32⟩
  | .hbm, ⟨13, _⟩ => ⟨S_, .f32⟩
  | .hbm, ⟨14, _⟩ => ⟨S65536, .f32⟩
  | .hbm, ⟨15, _⟩ => ⟨S65536, .f32⟩
  | .hbm, ⟨16, _⟩ => ⟨S65536x128, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S1x65536, .f32⟩
  | .hbm, ⟨21, _⟩ => ⟨S2048x1, .f32⟩
  | .hbm, ⟨22, _⟩ => ⟨S2048, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1x1024, .f32⟩
  | .local _ .vmem, ⟨13, _⟩ => ⟨S1x1024, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v48 : BitVec 1 := Scalar.cmpi .eq arg1 c63_i32
  let v49 : BitVec 32 := Scalar.extui v48
  let c0_i32_26 : BitVec 32 := 0#32
  let v50 : BitVec 1 := Scalar.cmpi .ne v49 c0_i32_26
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  reducesTo_S65536x128_S65536_d1 : S65536x128.ReducesTo [1] S65536
  h_S_ : 0 < S_.numel
  shapeCasts_S65536_S1x65536 : S65536.ShapeCasts S1x65536
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  shapeCasts_S1024x128_S1024x128 : S1024x128.ShapeCasts S1024x128
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S2048x1_S2048 : S2048x1.ShapeCasts S2048
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S2048x128.size a
  hwx0_0 : ∀ i : grid0.Coords, EltTy.bits .f32 = 32 ∨ (Rect.block (s := S2048x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S2048x128.size a
  hwx0_1 : ∀ i : grid0.Coords, EltTy.bits .f32 = 32 ∨ (Rect.block (s := S2048x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S2048x128.size a
  hwx0_2 : ∀ i : grid0.Coords, EltTy.bits .f32 = 32 ∨ (Rect.block (s := S2048x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S65536x128.size a
  hwx0_3 : ∀ i : grid0.Coords, EltTy.bits .bf16 = 32 ∨ (Rect.block (s := S65536x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S65536x128.size a
  hwx0_4 : ∀ i : grid0.Coords, EltTy.bits .bf16 = 32 ∨ (Rect.block (s := S65536x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S65536x128.size a
  hwx0_5 : ∀ i : grid0.Coords, EltTy.bits .bf16 = 32 ∨ (Rect.block (s := S65536x128) S1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x65536.size a
  hwx0_6 : ∀ i : grid0.Coords, EltTy.bits .f32 = 32 ∨ (Rect.block (s := S1x65536) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S2048x1.size a
  hwx0_7 : ∀ i : grid0.Coords, EltTy.bits .f32 = 32 ∨ (Rect.block (s := S2048x1) S1024x1.size (cc0_transform_7 i) (hinb0_7 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2048x128 : Shape := ⟨2, ![2048, 128]⟩
abbrev S65536x128 : Shape := ⟨2, ![65536, 128]⟩
abbrev S2048x384 : Shape := ⟨2, ![2048, 384]⟩
abbrev S65536x384 : Shape := ⟨2, ![65536, 384]⟩
abbrev S_ : Shape := ⟨0, ![]⟩
abbrev S2048 : Shape := ⟨1, ![2048]⟩
abbrev S2048x1 : Shape := ⟨2, ![2048, 1]⟩
abbrev S65536 : Shape := ⟨1, ![65536]⟩
abbrev S2048x65536 : Shape := ⟨2, ![2048, 65536]⟩
abbrev S1x65536 : Shape := ⟨2, ![1, 65536]⟩

abbrev nBuf : Space → Nat
  | .hbm => 34
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S65536x128, .f32⟩
  | .hbm, ⟨4, _⟩ => ⟨S65536x128, .f32⟩
  | .hbm, ⟨5, _⟩ => ⟨S65536x128, .f32⟩
  | .hbm, ⟨6, _⟩ => ⟨S2048x384, .f32⟩
  | .hbm, ⟨7, _⟩ => ⟨S65536x384, .f32⟩
  | .hbm, ⟨8, _⟩ => ⟨S2048x384, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S65536x384, .f32⟩
  | .hbm, ⟨13, _⟩ => ⟨S_, .f32⟩
  | .hbm, ⟨14, _⟩ => ⟨S65536, .f32⟩
  | .hbm, ⟨15, _⟩ => ⟨S2048x65536, .f32⟩
  | .hbm, ⟨16, _⟩ => ⟨S_, .f32⟩
  | .hbm, ⟨17, _⟩ => ⟨S2048x65536, .f32⟩
  | .hbm, ⟨18, _⟩ => ⟨S2048x65536, .f32⟩
  | .hbm, ⟨19, _⟩ => ⟨S2048x65536, .f32⟩
  | .hbm, ⟨20, _⟩ => ⟨S2048x65536, .f32⟩
  | .hbm, ⟨21, _⟩ => ⟨S1x65536, .f32⟩
  | .hbm, ⟨22, _⟩ => ⟨S2048x65536, .f32⟩
  | .hbm, ⟨23, _⟩ => ⟨S2048x65536, .f32⟩
  | .hbm, ⟨24, _⟩ => ⟨S_, .f32⟩
  | .hbm, ⟨25, _⟩ => ⟨S2048x65536, .f32⟩
  | .hbm, ⟨26, _⟩ => ⟨S2048x65536, .f32⟩
  | .hbm, ⟨27, _⟩ => ⟨S2048x65536, .f32⟩
  | .hbm, ⟨28, _⟩ => ⟨S_, .f32⟩
  | .hbm, ⟨29, _⟩ => ⟨S2048x65536, .f32⟩
  | .hbm, ⟨30, _⟩ => ⟨S2048x65536, .f32⟩
  | .hbm, ⟨31, _⟩ => ⟨S2048x65536, .f32⟩
  | .hbm, ⟨32, _⟩ => ⟨S_, .f32⟩
  | .hbm, ⟨33, _⟩ => ⟨S2048, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  concatenates_S2048x128_S2048x128_S2048x128_S2048x384_d1 : Shape.Concatenates [S2048x128, S2048x128, S2048x128] S2048x384 1
  concatenates_S65536x128_S65536x128_S65536x128_S65536x384_d1 : Shape.Concatenates [S65536x128, S65536x128, S65536x128] S65536x384 1
  reducesTo_S2048x384_S2048_d1 : S2048x384.ReducesTo [1] S2048
  h_S_ : 0 < S_.numel
  bcast_S2048_S2048x1_0 : S2048.BroadcastsInDim S2048x1 (![0] : Fin 1 → Fin S2048x1.rank)
  reducesTo_S65536x384_S65536_d1 : S65536x384.ReducesTo [1] S65536
  bcast_S_S2048x65536 : S_.BroadcastsInDim S2048x65536 (![] : Fin 0 → Fin S2048x65536.rank)
  bcast_S2048x1_S2048x65536_0_1 : S2048x1.BroadcastsInDim S2048x65536 (![0, 1] : Fin 2 → Fin S2048x65536.rank)
  bcast_S65536_S1x65536_1 : S65536.BroadcastsInDim S1x65536 (![1] : Fin 1 → Fin S1x65536.rank)
  bcast_S1x65536_S2048x65536_0_1 : S1x65536.BroadcastsInDim S2048x65536 (![0, 1] : Fin 2 → Fin S2048x65536.rank)
  reducesTo_S2048x65536_S2048_d1 : S2048x65536.ReducesTo [1] S2048
  dot_S2048x384_S65536x384_S2048x65536_1_1_0_0_n_n_wf : DotDims.WF S2048x384 S65536x384 S2048x65536 [1] [1] [0] [0] [] []

variable [Facts₀]

def dot_S2048x384_S65536x384_S2048x65536_1_1_0_0_n_n : DotDims S2048x384 S65536x384 S2048x65536 where
  lhsContracting := [1]
  rhsContracting := [1]
  lhsNonContracting := [0]
  rhsNonContracting := [0]
  lhsBatch := []
  rhsBatch := []
  wf := dot_S2048x384_S65536x384_S2048x65536_1_1_0_0_n_n_wf

class Facts : Prop extends Facts₀ where

variable [Facts]
-- ==== Proof.NearestFactSpec.lean ====
/-
  The score of the nearest fact, as mathematics over abstract finite index types.

  A query and a fact are each three parts `a, b, c : K → EReal` (relation, first argument, second
  argument). Their squared norm and their inner product are summed part by part, the squared distance
  is `‖q‖² − 2·⟨q, f⟩ + ‖f‖²` clamped below at zero, and the Gaussian score of a distance `d` is
  `exp (−d / 2)`. The best score over all facts can be arranged in two ways: the greatest of the
  scores (`bestScore`), or the score of the least distance (`scoreOfNearest`).
-/
import Idealize.ShloMosaic.PureOps.Ideal

noncomputable section

open scoped BigOperators

namespace Cert.NearestFact

open Idealize.ShloMosaic

/-- The f32 literal `2.0`. -/
abbrev two : EReal := Ideal.ofBits .f32 0x40000000#32
/-- The f32 literal `0.0`. -/
abbrev zero : EReal := Ideal.ofBits .f32 0x00000000#32
/-- The f32 literal `-0.5`. -/
abbrev negHalf : EReal := Ideal.ofBits .f32 0xBF000000#32

section
variable {K : Type*} [Fintype K]

/-- The squared norm of a three-part vector, summed part by part. -/
def normSq3 (a b c : K → EReal) : EReal := (∑ k, a k * a k + ∑ k, b k * b k) + ∑ k, c k * c k

/-- The inner product of two three-part vectors, summed part by part. -/
def dot3 (a b c a' b' c' : K → EReal) : EReal := (∑ k, a k * a' k + ∑ k, b k * b' k) + ∑ k, c k * c' k

/-- `qq − 2·d + ff`, clamped below at zero: the squared distance from the two squared norms and the
    inner product. -/
def clampDist (qq d ff : EReal) : EReal := max ((qq - two * d) + ff) zero

/-- The clamped squared distance between a query `(q0, q1, q2)` and a fact `(f0, f1, f2)`. -/
def dist (q0 q1 q2 f0 f1 f2 : K → EReal) : EReal :=
  clampDist (normSq3 q0 q1 q2) (dot3 q0 q1 q2 f0 f1 f2) (normSq3 f0 f1 f2)

end

section
variable {Φ : Type*} [Fintype Φ]

/-- The greatest Gaussian score `exp (−d / 2)` over the distances `g f`. -/
def bestScore (g : Φ → EReal) : EReal :=
  Finset.univ.sup fun f => Ideal.exp (Ideal.div (-(g f)) two)

/-- The Gaussian score, written `exp (d · (−1/2))`, of the least of the distances `g f`. -/
def scoreOfNearest (g : Φ → EReal) : EReal :=
  Ideal.exp (Finset.univ.inf g * negHalf)

end

end Cert.NearestFact

end
-- ==== Proof.LibDriftAlgebra.lean ====
/-
  A kernel-weighted drift row, in two arrangements, over abstract finite index types.

  For one row `x : κ → EReal` of the query array, a key array `Y : ι → κ → EReal` and a predicate `dg` marking the key
  that is the row itself, the Gaussian weight of key `j` is `exp (-(d² x (Y j)) / 2)` with
  `d² = max (|x|² + |Y j|² - 2 x·Y j) 0`, set to zero on the marked key; the field is
  `x · (s / max s ε) - (∑ⱼ wⱼ Y j) / max s ε` with `s = ∑ⱼ wⱼ`, and the drift is `-field(Yp) + field(Yn) / 2`.
  One arrangement (`driftK`) multiplies the clamped distance by `-1/2`, masks by a choice, and divides the weighted sum
  once; the other (`driftR`) negates and halves the distance, masks by the factor `1 - [dg j]`, normalises each
  weight before summing, and carries unit factors. They agree on ALL extended reals: the weights lie in `[0, 1]`
  whatever the inputs, so the normaliser is a positive real, and multiplication by a non-negative real distributes
  over any extended-real sum.
-/
import Idealize.ShloMosaic.PureOps.Ideal
import Idealize.ShloMosaic.PureOps.Ideal.Laws

noncomputable section

namespace Cert.Drift

open Idealize.ShloMosaic
open scoped BigOperators

/-! ## The float literals the two programs spell, as extended reals -/

theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1/2) : ℝ) : EReal) := by
  simp [Ideal.ofBits, Ideal.ieee, -EReal.coe_mul]; norm_num
theorem ofBits_one : Ideal.ofBits .f32 0x3F800000#32 = 1 := by
  simp [Ideal.ofBits, Ideal.ieee, -EReal.coe_mul]; norm_num
/-- The floor of the normaliser is a positive real. -/
theorem ofBits_eps : ∃ e : ℝ, 0 < e ∧ Ideal.ofBits .f32 0x322BCC77#32 = (e : EReal) := by
  refine ⟨11258999 * (2:ℝ)^(-50 : Int), by positivity, ?_⟩
  simp [Ideal.ofBits, Ideal.ieee, -EReal.coe_mul]

/-! ## Two small facts about sums of extended reals -/

/-- A finite sum of reals, read as extended reals, is the sum of the terms. -/
theorem coe_sum {α : Type} (s : Finset α) (a : α → ℝ) : ((∑ j ∈ s, a j : ℝ) : EReal) = ∑ j ∈ s, (a j : EReal) := by
  classical
  induction s using Finset.induction_on with
  | empty => simp
  | insert j s hj ih => rw [Finset.sum_insert hj, Finset.sum_insert hj, EReal.coe_add, ih]

/-- A non-negative real factor distributes over any finite sum of extended reals. -/
theorem mul_sum_of_nonneg {α : Type} (s : Finset α) (c : ℝ) (hc : 0 ≤ c) (t : α → EReal) :
    (c : EReal) * ∑ j ∈ s, t j = ∑ j ∈ s, (c : EReal) * t j := by
  classical
  induction s using Finset.induction_on with
  | empty => simp
  | insert j s hj ih =>
    rw [Finset.sum_insert hj, Finset.sum_insert hj,
      EReal.left_distrib_of_nonneg_of_ne_top (EReal.coe_nonneg.mpr hc) (EReal.coe_ne_top c), ih]

variable {ι κ : Type} [Fintype ι] [Fintype κ]

/-! ## The shared part: squared norms, the clamped squared distance -/

/-- The squared norm of a row. -/
def sqv (x : κ → EReal) : EReal := ∑ k, x k * x k

/-- The clamped squared distance between a row and key `j`, as `|x|² + |y|² - 2 x·y`. -/
def dist2 (x : κ → EReal) (Y : ι → κ → EReal) (j : ι) : EReal :=
  max ((sqv x + sqv (Y j)) - Ideal.ofBits .f32 0x40000000#32 * ∑ k, x k * Y j k) (Ideal.ofBits .f32 0x00000000#32)

theorem dist2_nonneg (x : κ → EReal) (Y : ι → κ → EReal) (j : ι) : 0 ≤ dist2 x Y j := by
  unfold dist2; rw [Ideal.ofBits_zero_f32]; exact le_max_right _ _

/-! ## The first arrangement -/

/-- The weight of key `j`: zero on the marked key, else `exp (d² · (-1/2))`. -/
def wgtK (x : κ → EReal) (Y : ι → κ → EReal) (dg : ι → Prop) [DecidablePred dg] (j : ι) : EReal :=
  if dg j then Ideal.ofBits .f32 0x00000000#32 else Ideal.exp (dist2 x Y j * Ideal.ofBits .f32 0xBF000000#32)

/-- The field of one key array at feature `k`: the weighted sum divided once by the normaliser. -/
def fieldK (x : κ → EReal) (Y : ι → κ → EReal) (dg : ι → Prop) [DecidablePred dg] (k : κ) : EReal :=
  x k * Ideal.div (∑ j, wgtK x Y dg j) (max (∑ j, wgtK x Y dg j) (Ideal.ofBits .f32 0x322BCC77#32))
    - Ideal.div (∑ j, wgtK x Y dg j * Y j k) (max (∑ j, wgtK x Y dg j) (Ideal.ofBits .f32 0x322BCC77#32))

/-- The drift: minus the field of the first key array plus half the field of the second. -/
def driftK (x : κ → EReal) (Yp Yn : ι → κ → EReal) (dg : ι → Prop) [DecidablePred dg] (k : κ) : EReal :=
  Ideal.ofBits .f32 0xBF800000#32 * fieldK x Yp dg k + Ideal.ofBits .f32 0x3F000000#32 * fieldK x Yn dg k

/-! ## The second arrangement -/

/-- The weight of key `j`: `exp ((-d²) / 2)` times `1 - [dg j]`. -/
def wgtR (x : κ → EReal) (Y : ι → κ → EReal) (dg : ι → Prop) [DecidablePred dg] (j : ι) : EReal :=
  Ideal.exp (Ideal.div (-(dist2 x Y j)) (Ideal.ofBits .f32 0x40000000#32))
    * (Ideal.ofBits .f32 0x3F800000#32 - (if dg j then (1 : EReal) else 0))

/-- The field with every weight normalised before the sum over the keys. -/
def fieldR (x : κ → EReal) (Y : ι → κ → EReal) (dg : ι → Prop) [DecidablePred dg] (k : κ) : EReal :=
  x k * Ideal.div (∑ j, wgtR x Y dg j) (max (∑ j, wgtR x Y dg j) (Ideal.ofBits .f32 0x322BCC77#32))
    - ∑ j, Ideal.div (wgtR x Y dg j) (max (∑ j', wgtR x Y dg j') (Ideal.ofBits .f32 0x322BCC77#32)) * Y j k

/-- The drift with its unit factors. -/
def driftR (x : κ → EReal) (Yp Yn : ι → κ → EReal) (dg : ι → Prop) [DecidablePred dg] (k : κ) : EReal :=
  Ideal.ofBits .f32 0x3F800000#32 * (Ideal.ofBits .f32 0xBF800000#32 * fieldR x Yp dg k)
    + Ideal.ofBits .f32 0x3F000000#32 * (Ideal.ofBits .f32 0x3F800000#32 * fieldR x Yn dg k)

/-! ## They agree -/

variable (x : κ → EReal) (Y Yp Yn : ι → κ → EReal) (dg : ι → Prop) [DecidablePred dg]

/-- Key by key the two weights are one extended real: on the marked key both vanish; elsewhere
    `(-d) / 2 = d · (-1/2)` and the mask factor is one. -/
theorem wgtR_eq (j : ι) : wgtR x Y dg j = wgtK x Y dg j := by
  unfold wgtR wgtK
  by_cases h : dg j
  · rw [if_pos h, if_pos h, ofBits_one, Ideal.ofBits_zero_f32]
    have : ((1 : EReal) - 1) = 0 := by rw [← EReal.coe_one, ← EReal.coe_sub, sub_self, EReal.coe_zero]
    rw [this, mul_zero]
  · rw [if_neg h, if_neg h, ofBits_one, sub_zero, mul_one, ofBits_two, ofBits_neg_half,
      Ideal.div_coe (by norm_num : (2 : ℝ) ≠ 0)]
    refine congrArg Ideal.exp ?_
    rw [EReal.coe_neg, mul_neg, neg_mul]

/-- A weight is a real in `[0, 1]`, whatever the inputs: the clamped distance is non-negative, so the exponent is
    non-positive (or `-∞`, where the exponential is zero). -/
theorem wgtK_real (j : ι) : ∃ a : ℝ, 0 ≤ a ∧ wgtK x Y dg j = (a : EReal) := by
  unfold wgtK
  by_cases h : dg j
  · exact ⟨0, le_refl _, by rw [if_pos h, Ideal.ofBits_zero_f32, EReal.coe_zero]⟩
  · rw [if_neg h, ofBits_neg_half]
    have hd := dist2_nonneg x Y j
    generalize dist2 x Y j = d at hd
    induction d using EReal.rec with
    | bot => exact absurd hd (by simp)
    | coe r =>
      refine ⟨Real.exp (r * -(1/2)), (Real.exp_pos _).le, ?_⟩
      rw [← EReal.coe_mul]; rfl
    | top =>
      refine ⟨0, le_refl _, ?_⟩
      rw [EReal.top_mul_coe_of_neg (by norm_num : (-(1/2) : ℝ) < 0)]; rfl

/-- So the normaliser `max (∑ w) ε` is a positive real. -/
theorem den_real : ∃ d : ℝ, 0 < d ∧ max (∑ j, wgtK x Y dg j) (Ideal.ofBits .f32 0x322BCC77#32) = (d : EReal) := by
  choose a ha0 ha using wgtK_real x Y dg
  obtain ⟨e, he, hee⟩ := ofBits_eps
  refine ⟨max (∑ j, a j) e, lt_max_of_lt_right he, ?_⟩
  rw [hee, EReal.coe_strictMono.monotone.map_max, coe_sum]
  exact congrArg (fun z : EReal => max z (e : EReal)) (Finset.sum_congr rfl fun j _ => ha j)

/-- The fields agree: dividing every weight by the positive real normaliser and then summing against a feature is
    dividing the weighted sum once. -/
theorem fieldR_eq (k : κ) : fieldR x Y dg k = fieldK x Y dg k := by
  unfold fieldR fieldK
  simp only [wgtR_eq]
  obtain ⟨d, hd, hden⟩ := den_real x Y dg
  rw [hden]
  congr 1
  simp only [Ideal.div_coe hd.ne']
  have hc : (0 : ℝ) ≤ 1 / d := by positivity
  rw [mul_comm (∑ j, wgtK x Y dg j * Y j k) _, mul_sum_of_nonneg _ _ hc]
  exact Finset.sum_congr rfl fun j _ => by rw [mul_right_comm, mul_comm]

/-- The drifts agree. -/
theorem driftR_eq (k : κ) : driftR x Yp Yn dg k = driftK x Yp Yn dg k := by
  unfold driftR driftK
  rw [fieldR_eq, fieldR_eq, ofBits_one, one_mul, one_mul]

end Cert.Drift

end
-- ==== Proof.LibRunningMin.lean ====
/-
  Least and greatest of finitely many extended reals, accumulated.

  A fold of `min` from the f32 word of +∞ over a finite set is the infimum of the family over that set, and
  a fold of `max` from the word of −∞ is its supremum. The infimum of a family indexed by `Fin N` over an
  initial segment can be accumulated block by block: over the first (j + 1)·B indices it is the lesser
  of the infimum over the first j·B indices and the infimum over the block of B indices starting at j·B;
  over no index it is +∞ and over all N indices it is the infimum of the whole family. The exponential
  extended to the extended reals (−∞ ↦ 0, +∞ ↦ +∞) is monotone. Nothing here assumes finiteness of
  the values.
-/
import Idealize.ShloMosaic.PureOps.Ideal

noncomputable section

open scoped BigOperators

namespace Cert.Lib.RunningMin

open Idealize.ShloMosaic

/-! ## Folds of `min` from `+∞` and of `max` from `−∞` -/

/-- The f32 word of `+∞` is the top extended real. -/
theorem ofBits_posInf : Ideal.ofBits .f32 0x7F800000#32 = (⊤ : EReal) := by
  simp [Ideal.ofBits, Ideal.ieee]

/-- The f32 word of `−∞` is the bottom extended real. -/
theorem ofBits_negInf : Ideal.ofBits .f32 0xFF800000#32 = (⊥ : EReal) := by
  simp [Ideal.ofBits, Ideal.ieee]

/-- Folding `min` over a finite set from `+∞` gives the infimum of the family over that set. -/
theorem fold_min_posInf {ι : Type*} (s : Finset ι) (f : ι → EReal) :
    s.fold min (Ideal.ofBits .f32 0x7F800000#32) f = s.inf f := by
  classical
  rw [ofBits_posInf]
  induction s using Finset.induction_on with
  | empty => simp
  | insert a s ha ih => rw [Finset.fold_insert ha, Finset.inf_insert, ih]

/-- Folding `max` over a finite set from `−∞` gives the supremum of the family over that set. -/
theorem fold_max_negInf {ι : Type*} (s : Finset ι) (f : ι → EReal) :
    s.fold max (Ideal.ofBits .f32 0xFF800000#32) f = s.sup f := by
  classical
  rw [ofBits_negInf]
  induction s using Finset.induction_on with
  | empty => simp
  | insert a s ha ih => rw [Finset.fold_insert ha, Finset.sup_insert, ih]

/-! ## The running minimum over initial segments of `Fin N` -/

section
variable {N : ℕ}

/-- The infimum over the empty initial segment is `+∞`. -/
theorem inf_below_zero (g : Fin N → EReal) :
    (Finset.univ.filter fun f : Fin N => f.val < 0).inf g = ⊤ := by
  simp

/-- The infimum over the first `(j + 1) · B` indices is the lesser of the infimum over the first
    `j · B` indices and the infimum over the block of `B` indices that starts at `j · B`. -/
theorem inf_below_succ_block (g : Fin N → EReal) (j B : ℕ) (hj : (j + 1) * B ≤ N) :
    (Finset.univ.filter fun f : Fin N => f.val < (j + 1) * B).inf g
      = min ((Finset.univ.filter fun f : Fin N => f.val < j * B).inf g)
          (Finset.univ.inf fun c : Fin B => g ⟨j * B + c.val, by have := c.isLt; nlinarith⟩) := by
  have hsucc : (j + 1) * B = j * B + B := Nat.succ_mul j B
  apply le_antisymm
  · refine le_min (Finset.inf_mono fun f hf => ?_) (Finset.le_inf fun c _ => Finset.inf_le ?_)
    · rw [Finset.mem_filter] at hf ⊢
      exact ⟨hf.1, by omega⟩
    · rw [Finset.mem_filter]
      exact ⟨Finset.mem_univ _, by have := c.isLt; show j * B + c.val < (j + 1) * B; omega⟩
  · refine Finset.le_inf fun f hf => ?_
    rw [Finset.mem_filter] at hf
    by_cases h : f.val < j * B
    · exact (min_le_left _ _).trans (Finset.inf_le (Finset.mem_filter.mpr ⟨Finset.mem_univ f, h⟩))
    · have hc : f.val - j * B < B := by omega
      refine (min_le_right _ _).trans ((Finset.inf_le (Finset.mem_univ (⟨f.val - j * B, hc⟩ : Fin B))).trans
        (le_of_eq (congrArg g (Fin.ext ?_))))
      show j * B + (f.val - j * B) = f.val
      omega

/-- The infimum over the initial segment of all `N` indices is the infimum over every index. -/
theorem inf_below_all (g : Fin N → EReal) :
    (Finset.univ.filter fun f : Fin N => f.val < N).inf g = Finset.univ.inf g := by
  rw [Finset.filter_true_of_mem fun f _ => f.isLt]

end

/-! ## The extended exponential is monotone -/

/-- The exponential, extended by `exp (−∞) = 0` and `exp (+∞) = +∞`, is monotone on the extended reals. -/
theorem exp_mono : Monotone Ideal.exp := by
  intro x y h
  induction x using EReal.rec with
  | bot =>
    induction y using EReal.rec with
    | bot => exact le_refl _
    | coe s =>
      show ((0 : ℝ) : EReal) ≤ ((Real.exp s : ℝ) : EReal)
      exact EReal.coe_le_coe_iff.mpr (Real.exp_pos s).le
    | top => exact le_top
  | coe r =>
    induction y using EReal.rec with
    | bot => exact absurd h (by simp)
    | coe s =>
      show ((Real.exp r : ℝ) : EReal) ≤ ((Real.exp s : ℝ) : EReal)
      exact EReal.coe_le_coe_iff.mpr (Real.exp_le_exp.mpr (EReal.coe_le_coe_iff.mp h))
    | top => exact le_top
  | top =>
    rw [top_le_iff] at h
    rw [h]

end Cert.Lib.RunningMin

end
-- ==== Proof.NearestFactLaw.lean ====
/-
  Order-theoretic and algebraic laws behind the score of the nearest fact, over the extended reals.

  The Gaussian score `d ↦ exp (−d / 2)` is antitone on all of `EReal`, so it carries the least of a
  nonempty finite family of distances to the greatest of the scores.
-/
import proofs.«158915_j20306605375522_2_alg».proof.Proof.NearestFactSpec
import proofs.«158915_j20306605375522_2_alg».proof.Proof.LibDriftAlgebra
import proofs.«158915_j20306605375522_2_alg».proof.Proof.LibRunningMin

noncomputable section

open scoped BigOperators

namespace Cert.NearestFact

open Idealize.ShloMosaic

export Cert.Lib.RunningMin (ofBits_posInf ofBits_negInf fold_min_posInf fold_max_negInf inf_below_zero
  inf_below_succ_block inf_below_all exp_mono)

/-! ## The score of the least distance is the greatest score -/

/-- The f32 literal `2.0` is the real number two. -/
theorem two_eq : two = ((2 : ℝ) : EReal) := Cert.Drift.ofBits_two

/-- The f32 literal `-0.5` is the real number minus one half. -/
theorem negHalf_eq : negHalf = ((-(1 / 2) : ℝ) : EReal) := Cert.Drift.ofBits_neg_half

/-- On every extended real, multiplying by `-1/2` is negating and then dividing by two. -/
theorem mul_negHalf_eq_div (x : EReal) : x * negHalf = Ideal.div (-x) two := by
  rw [two_eq, negHalf_eq, Ideal.div_coe (by norm_num : (2 : ℝ) ≠ 0), EReal.coe_neg, mul_neg, neg_mul]

/-- The Gaussian score `d ↦ exp (−d / 2)` is antitone on the extended reals. -/
theorem score_antitone : Antitone fun x : EReal => Ideal.exp (Ideal.div (-x) two) := by
  intro x y h
  show Ideal.exp (Ideal.div (-y) two) ≤ Ideal.exp (Ideal.div (-x) two)
  refine exp_mono ?_
  rw [two_eq, Ideal.div_coe (by norm_num : (2 : ℝ) ≠ 0), Ideal.div_coe (by norm_num : (2 : ℝ) ≠ 0)]
  exact mul_le_mul_of_nonneg_right (EReal.neg_le_neg_iff.mpr h)
    (EReal.coe_nonneg.mpr (by norm_num : (0 : ℝ) ≤ 1 / 2))

/-- Over a nonempty finite family of distances, the score of the least distance is the greatest of
    the scores: the least distance is attained, and the score is antitone. -/
theorem scoreOfNearest_eq_bestScore {Φ : Type*} [Fintype Φ] [Nonempty Φ] (g : Φ → EReal) :
    scoreOfNearest g = bestScore g := by
  unfold scoreOfNearest bestScore
  rw [mul_negHalf_eq_div]
  apply le_antisymm
  · obtain ⟨f₀, _, hf₀⟩ := Finset.exists_mem_eq_inf Finset.univ Finset.univ_nonempty g
    rw [hf₀]
    exact Finset.le_sup (f := fun f => Ideal.exp (Ideal.div (-(g f)) two)) (Finset.mem_univ f₀)
  · exact Finset.sup_le fun f _ => score_antitone (Finset.inf_le (Finset.mem_univ f))

end Cert.NearestFact

end
-- ==== Proof.BlockReads.lean ====
/-
  Which entries of the arrays each grid point sees.

  The grid is 2 × 64: point t works on query tile t / 64 (rows (t / 64)·1024 … of the three query
  arrays) against fact tile t % 64 (rows (t % 64)·1024 … of the three fact arrays, and columns
  (t % 64)·1024 … of the row of squared fact norms). Before the grid runs, the fact arrays are narrowed
  (a change of format only) and the row of squared norms is computed part by part.
-/
import proofs.«158915_j20306605375522_2_alg».proof.Proof.Gen.KernelIdeal.Frame
import proofs.«158915_j20306605375522_2_alg».proof.Proof.NearestFactSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.NearestFact

variable {F : FTy → Type} [FloatOps F]
variable (m : (ℓ : Loc nD τ sig) → Buf (Elt F) ℓ)

/-- A grid point is below 128. -/
theorem point_lt (t : Fin cfg0.N) : t.val < 128 := lt_of_lt_of_eq t.isLt N_0

/-- The query row that row `r` of point `t`'s query tile is. -/
def qrow (t : Fin cfg0.N) (r : Fin 1024) : Fin 2048 :=
  ⟨t.val / 64 * 1024 + r.val, by have := point_lt t; have := r.isLt; omega⟩

/-- The fact that row `r` of point `t`'s fact tile is. -/
def fcol (t : Fin cfg0.N) (r : Fin 1024) : Fin 65536 :=
  ⟨t.val % 64 * 1024 + r.val, by have := r.isLt; omega⟩

/-- The query windows' block indices: (t / 64, 0). -/
theorem idxQ : ∀ t : Fin cfg0.N,
    (win0_0.index t (0 : Fin 2) = t.val / 64 ∧ win0_0.index t (1 : Fin 2) = 0)
    ∧ (win0_1.index t (0 : Fin 2) = t.val / 64 ∧ win0_1.index t (1 : Fin 2) = 0)
    ∧ (win0_2.index t (0 : Fin 2) = t.val / 64 ∧ win0_2.index t (1 : Fin 2) = 0) :=
  (by decide +kernel : ∀ t : Fin grid0.N, _)

/-- The fact windows' block indices: (t % 64, 0), and (0, t % 64) for the row of squared norms. -/
theorem idxF : ∀ t : Fin cfg0.N,
    (win0_3.index t (0 : Fin 2) = t.val % 64 ∧ win0_3.index t (1 : Fin 2) = 0)
    ∧ (win0_4.index t (0 : Fin 2) = t.val % 64 ∧ win0_4.index t (1 : Fin 2) = 0)
    ∧ (win0_5.index t (0 : Fin 2) = t.val % 64 ∧ win0_5.index t (1 : Fin 2) = 0)
    ∧ (win0_6.index t (0 : Fin 2) = 0 ∧ win0_6.index t (1 : Fin 2) = t.val % 64) :=
  (by decide +kernel : ∀ t : Fin grid0.N, _)

/-- The output window's block index: (t / 64, 0). -/
theorem idxO : ∀ t : Fin cfg0.N, win0_7.index t (0 : Fin 2) = t.val / 64 ∧ win0_7.index t (1 : Fin 2) = 0 :=
  (by decide +kernel : ∀ t : Fin grid0.N, _)

/-- Query window 0's block at point `t` is rows (t / 64)·1024 … of its array, all 128 columns. -/
theorem iblk0_apply (c : Dev nD) (t : Fin cfg0.N) (r : Fin 1024) (k : Fin 128) :
    (iblk m c 0 t : Vec F S1024x128 .f32) (ix2 r k) = V m c main_arg0 (ix2 (qrow t r) k) := by
  have e := (idxQ t).1
  show V m c main_arg0 (((cfg0.win 0).blk t).view.emb (ix2 r k)) = _
  refine congrArg (V m c main_arg0) (funext fun a => Fin.ext ?_)
  match a with
  | ⟨0, _⟩ => show win0_0.index t 0 * 1024 + 1 * r.val = t.val / 64 * 1024 + r.val; rw [e.1]; omega
  | ⟨1, _⟩ => show win0_0.index t 1 * 128 + 1 * k.val = k.val; rw [e.2]; omega

/-- Query window 1's block at point `t` is rows (t / 64)·1024 … of its array, all 128 columns. -/
theorem iblk1_apply (c : Dev nD) (t : Fin cfg0.N) (r : Fin 1024) (k : Fin 128) :
    (iblk m c 1 t : Vec F S1024x128 .f32) (ix2 r k) = V m c main_arg1 (ix2 (qrow t r) k) := by
  have e := (idxQ t).2.1
  show V m c main_arg1 (((cfg0.win 1).blk t).view.emb (ix2 r k)) = _
  refine congrArg (V m c main_arg1) (funext fun a => Fin.ext ?_)
  match a with
  | ⟨0, _⟩ => show win0_1.index t 0 * 1024 + 1 * r.val = t.val / 64 * 1024 + r.val; rw [e.1]; omega
  | ⟨1, _⟩ => show win0_1.index t 1 * 128 + 1 * k.val = k.val; rw [e.2]; omega

/-- Query window 2's block at point `t` is rows (t / 64)·1024 … of its array, all 128 columns. -/
theorem iblk2_apply (c : Dev nD) (t : Fin cfg0.N) (r : Fin 1024) (k : Fin 128) :
    (iblk m c 2 t : Vec F S1024x128 .f32) (ix2 r k) = V m c main_arg2 (ix2 (qrow t r) k) := by
  have e := (idxQ t).2.2
  show V m c main_arg2 (((cfg0.win 2).blk t).view.emb (ix2 r k)) = _
  refine congrArg (V m c main_arg2) (funext fun a => Fin.ext ?_)
  match a with
  | ⟨0, _⟩ => show win0_2.index t 0 * 1024 + 1 * r.val = t.val / 64 * 1024 + r.val; rw [e.1]; omega
  | ⟨1, _⟩ => show win0_2.index t 1 * 128 + 1 * k.val = k.val; rw [e.2]; omega

/-- Fact window 3's block at point `t` is rows (t % 64)·1024 … of its array, all 128 columns. -/
theorem iblk3_apply (c : Dev nD) (t : Fin cfg0.N) (r : Fin 1024) (k : Fin 128) :
    (iblk m c 3 t : Vec F S1024x128 .bf16) (ix2 r k) = V m c main_v0 (ix2 (fcol t r) k) := by
  have e := (idxF t).1
  show V m c main_v0 (((cfg0.win 3).blk t).view.emb (ix2 r k)) = _
  refine congrArg (V m c main_v0) (funext fun a => Fin.ext ?_)
  match a with
  | ⟨0, _⟩ => show win0_3.index t 0 * 1024 + 1 * r.val = t.val % 64 * 1024 + r.val; rw [e.1]; omega
  | ⟨1, _⟩ => show win0_3.index t 1 * 128 + 1 * k.val = k.val; rw [e.2]; omega

/-- Fact window 4's block at point `t` is rows (t % 64)·1024 … of its array, all 128 columns. -/
theorem iblk4_apply (c : Dev nD) (t : Fin cfg0.N) (r : Fin 1024) (k : Fin 128) :
    (iblk m c 4 t : Vec F S1024x128 .bf16) (ix2 r k) = V m c main_v1 (ix2 (fcol t r) k) := by
  have e := (idxF t).2.1
  show V m c main_v1 (((cfg0.win 4).blk t).view.emb (ix2 r k)) = _
  refine congrArg (V m c main_v1) (funext fun a => Fin.ext ?_)
  match a with
  | ⟨0, _⟩ => show win0_4.index t 0 * 1024 + 1 * r.val = t.val % 64 * 1024 + r.val; rw [e.1]; omega
  | ⟨1, _⟩ => show win0_4.index t 1 * 128 + 1 * k.val = k.val; rw [e.2]; omega

/-- Fact window 5's block at point `t` is rows (t % 64)·1024 … of its array, all 128 columns. -/
theorem iblk5_apply (c : Dev nD) (t : Fin cfg0.N) (r : Fin 1024) (k : Fin 128) :
    (iblk m c 5 t : Vec F S1024x128 .bf16) (ix2 r k) = V m c main_v2 (ix2 (fcol t r) k) := by
  have e := (idxF t).2.2.1
  show V m c main_v2 (((cfg0.win 5).blk t).view.emb (ix2 r k)) = _
  refine congrArg (V m c main_v2) (funext fun a => Fin.ext ?_)
  match a with
  | ⟨0, _⟩ => show win0_5.index t 0 * 1024 + 1 * r.val = t.val % 64 * 1024 + r.val; rw [e.1]; omega
  | ⟨1, _⟩ => show win0_5.index t 1 * 128 + 1 * k.val = k.val; rw [e.2]; omega

/-- The squared-norm window's block at point `t` is columns (t % 64)·1024 … of the one row. -/
theorem iblk6_apply (c : Dev nD) (t : Fin cfg0.N) (u : Fin 1) (k : Fin 1024) :
    (iblk m c 6 t : Vec F S1x1024 .f32) (ix2 u k) = V m c main_v11 (ix2 (0 : Fin 1) (fcol t k)) := by
  have e := (idxF t).2.2.2
  show V m c main_v11 (((cfg0.win 6).blk t).view.emb (ix2 u k)) = _
  refine congrArg (V m c main_v11) (funext fun a => Fin.ext ?_)
  match a with
  | ⟨0, _⟩ => show win0_6.index t 0 * 1 + 1 * u.val = 0; rw [e.1]; omega
  | ⟨1, _⟩ => show win0_6.index t 1 * 1024 + 1 * k.val = t.val % 64 * 1024 + k.val; rw [e.2]; omega

/-! ## What the region finds in the arrays computed before it -/

/-- The first fact array as the region finds it: the argument, narrowed. -/
theorem V_fact0 (c : Dev nD) : (V m c main_v0 : S65536x128.Idx → Elt F .bf16)
    = truncf .bf16 (m ((c.tc : Thread nD τ).loc main_arg3)) bitsLt_bf16_f32 := by
  show StableHlo.after hostOps0 (fun b => m (c, b)) (Proc.devRef .tc main_v0) = _
  after_results

/-- The second fact array as the region finds it: the argument, narrowed. -/
theorem V_fact1 (c : Dev nD) : (V m c main_v1 : S65536x128.Idx → Elt F .bf16)
    = truncf .bf16 (m ((c.tc : Thread nD τ).loc main_arg4)) bitsLt_bf16_f32 := by
  show StableHlo.after hostOps0 (fun b => m (c, b)) (Proc.devRef .tc main_v1) = _
  after_results

/-- The third fact array as the region finds it: the argument, narrowed. -/
theorem V_fact2 (c : Dev nD) : (V m c main_v2 : S65536x128.Idx → Elt F .bf16)
    = truncf .bf16 (m ((c.tc : Thread nD τ).loc main_arg5)) bitsLt_bf16_f32 := by
  show StableHlo.after hostOps0 (fun b => m (c, b)) (Proc.devRef .tc main_v2) = _
  after_results

/-- The row of squared fact norms, from the three fact arrays: each part's row sums of squares, added
    part by part, laid out as one row. -/
def factNorms (A3 A4 A5 : FVec F S65536x128 .f32) : FVec F S1x65536 .f32 :=
  shapeCast S1x65536
    (addf (addf (Host.reduceAdd (mulf A3 A3) (constant S_ .f32 0x00000000#32) reducesTo_S65536x128_S65536_d1 h_S_)
        (Host.reduceAdd (mulf A4 A4) (constant S_ .f32 0x00000000#32) reducesTo_S65536x128_S65536_d1 h_S_))
      (Host.reduceAdd (mulf A5 A5) (constant S_ .f32 0x00000000#32) reducesTo_S65536x128_S65536_d1 h_S_))
    shapeCasts_S65536_S1x65536

/-- The region finds that row in its seventh window's array. -/
theorem V_factNorms (c : Dev nD) : (V m c main_v11 : S1x65536.Idx → Elt F .f32)
    = factNorms (m ((c.tc : Thread nD τ).loc main_arg3)) (m ((c.tc : Thread nD τ).loc main_arg4))
        (m ((c.tc : Thread nD τ).loc main_arg5)) := by
  show StableHlo.after hostOps0 (fun b => m (c, b)) (Proc.devRef .tc main_v11) = _
  after_results
  rfl

/-- On the extended reals a row sum of squares computed before the region is Σₖ A(f,k)² (it starts from 0). -/
theorem hostRowSq_apply (A : FVec Ideal S65536x128 .f32) (f : Fin 65536) :
    Host.reduceAdd (F := Ideal) (mulf A A) (constant (F := Ideal) S_ .f32 0x00000000#32) reducesTo_S65536x128_S65536_d1 h_S_ (ix1 f)
      = ∑ k : Fin 128, A (ix2 f k) * A (ix2 f k) := by
  simp only [Host.reduceAdd, Ideal.hostReduceAdd_def]
  rw [Ideal.hostReduceAdd_single reducesTo_S65536x128_S65536_d1 (by decide)]
  rw [show constant (F := Ideal) S_ .f32 0x00000000#32 (Shape.Idx.first h_S_) = 0 from Ideal.ofBits_zero_f32, zero_add]
  exact Finset.sum_congr rfl fun k _ => congrArg (fun i => A i * A i)
    (funext fun a => Fin.ext (by match a with | ⟨0, _⟩ => rfl | ⟨1, _⟩ => rfl))

/-- So entry f of the row is the squared norm of fact f, summed part by part. -/
theorem factNorms_apply (A3 A4 A5 : FVec Ideal S65536x128 .f32) (u : Fin 1) (f : Fin 65536) :
    factNorms A3 A4 A5 (ix2 u f)
      = normSq3 (fun k : Fin 128 => A3 (ix2 f k)) (fun k => A4 (ix2 f k)) (fun k => A5 (ix2 f k)) := by
  unfold factNorms normSq3
  refine (shapeCast_a_1a_apply _ shapeCasts_S65536_S1x65536 u f).trans ?_
  exact congrArg₂ (· + ·) (congrArg₂ (· + ·) (hostRowSq_apply A3 f) (hostRowSq_apply A4 f)) (hostRowSq_apply A5 f)

end Cert.KernelIdeal.Blocks

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.TileDistance.lean ====
/-
  One tile of clamped squared distances, read entry by entry on the extended reals.

  A tile pairs 1024 queries (three 1024×128 parts) with 1024 facts (three 1024×128 parts and a row of
  their squared norms). Entry (r, c) of the tile is ‖q_r‖² − 2·⟨q_r, f_c⟩ + ‖f_c‖²: the query's squared
  norm is three row sums, the inner product three row-by-row contractions, and the fact's squared norm
  is read off the given row. Clamped at zero and reduced along the facts, row r of the tile gives the
  least clamped distance from query r to the tile's facts, which is then merged into a running least.
-/
import proofs.«158915_j20306605375522_2_alg».proof.Proof.Gen.KernelIdeal.Skeleton
import proofs.«158915_j20306605375522_2_alg».proof.Proof.NearestFactSpec
import proofs.«158915_j20306605375522_2_alg».proof.Proof.LibColumnLayout
import proofs.«158915_j20306605375522_2_alg».proof.Proof.LibContractSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.NearestFact

/-- The sum of squares along a row, kept as a column: at (r, u) it is Σₖ x(r,k)². -/
theorem rowSq_apply (x : FVec Ideal S1024x128 .f32) (hφ : FKind.Formats .f32)
    (hacc : (0x00000000#32 : BitVec 32) = FKind.add.neutral .f32 hφ) (r : Fin 1024) (u : Fin 1) :
    shapeCast S1024x1 (multiReduction .add [1] S1024 (mulf x x) 0x00000000#32 reduces_S1024x128_S1024 hφ hacc)
        shapeCasts_S1024_S1024x1 (ix2 r u)
      = ∑ k : Fin 128, x (ix2 r k) * x (ix2 r k) := by
  refine (Cert.Lib.ColumnLayout.shapeCast_a_a1_apply _ shapeCasts_S1024_S1024x1 r u).trans ?_
  refine (Ideal.multiReduction_add_single (mulf x x) 0x00000000#32 reduces_S1024x128_S1024 hφ hacc (ix1 r)).trans ?_
  exact Finset.sum_congr rfl fun k _ => congrArg (fun i => x i * x i)
    (funext fun a => Fin.ext (by match a with | ⟨0, _⟩ => rfl | ⟨1, _⟩ => rfl))

/-- The contraction's left operand index at output (r, c): row r … -/
theorem lhs0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
/-- … at the contracted coordinate. -/
theorem lhs1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
/-- The right operand's index at output (r, c): row c … -/
theorem rhs0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
/-- … at the contracted coordinate. -/
theorem rhs1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- Rows contracted against rows: entry (r, c) of the product of a query part with a fact part is
    Σₖ x(r,k)·y(c,k) (the narrowing of the query part to the facts' format is the identity here). -/
theorem tileDot_apply (x : FVec Ideal S1024x128 .f32) (y : FVec Ideal S1024x128 .bf16) (r c : Fin 1024) :
    matmul dot_S1024x128_S1024x128_S1024x1024_1_1_0_0_n_n none (truncf .bf16 x bitsLt_bf16_f32)
        (shapeCast S1024x128 y shapeCasts_S1024x128_S1024x128) (constant S1024x1024 .f32 0x00000000#32) (ix2 r c)
      = ∑ k : Fin 128, x (ix2 r k) * y (ix2 c k) := by
  refine (Cert.LibContractSum.matmul_zero_sum dot_S1024x128_S1024x128_S1024x1024_1_1_0_0_n_n none 128 rfl rfl
    (truncf .bf16 x bitsLt_bf16_f32) (shapeCast S1024x128 y shapeCasts_S1024x128_S1024x128) (ix2 r c)
    (fun k => ix2 r k) (fun k => ix2 c k) (fun k => ?_) (fun k => ?_)).trans ?_
  · have hk := contrEquiv1_symm_val dot_S1024x128_S1024x128_S1024x1024_1_1_0_0_n_n 128 rfl rfl k
    exact funext fun a => Fin.ext (by
      match a with
      | ⟨0, _⟩ => exact lhs0 _ _
      | ⟨1, _⟩ => exact (lhs1 _ _).trans hk)
  · have hk := contrEquiv1_symm_val dot_S1024x128_S1024x128_S1024x1024_1_1_0_0_n_n 128 rfl rfl k
    exact funext fun a => Fin.ext (by
      match a with
      | ⟨0, _⟩ => exact rhs0 _ _
      | ⟨1, _⟩ => exact (rhs1 _ _).trans hk)
  · exact Finset.sum_congr rfl fun k _ => by rw [shapeCast_self]; rfl

/-- Entry (r, c) of the tile before clamping: ‖q_r‖² − 2·⟨q_r, f_c⟩ plus the fact's given squared norm. -/
theorem pay4_apply (x0 x1 x2 : Vec Ideal S1024x128 .f32) (x3 x4 x5 : Vec Ideal S1024x128 .bf16)
    (x6 : Vec Ideal S1x1024 .f32) (r c : Fin 1024) :
    k0_pay4 x0 x1 x2 x3 x4 x5 x6 (ix2 r c)
      = (normSq3 (fun k : Fin 128 => x0 (ix2 r k)) (fun k => x1 (ix2 r k)) (fun k => x2 (ix2 r k))
          - two * dot3 (fun k : Fin 128 => x0 (ix2 r k)) (fun k => x1 (ix2 r k)) (fun k => x2 (ix2 r k))
              (fun k => x3 (ix2 c k)) (fun k => x4 (ix2 c k)) (fun k => x5 (ix2 c k)))
        + x6 (ix2 (0 : Fin 1) c) := by
  have q0 := rowSq_apply x0 (.inl rfl) rfl r 0
  have q1 := rowSq_apply x1 (.inl rfl) rfl r 0
  have q2 := rowSq_apply x2 (.inl rfl) rfl r 0
  have d0 := tileDot_apply x0 x3 r c
  have d1 := tileDot_apply x1 x4 r c
  have d2 := tileDot_apply x2 x5 r c
  unfold k0_pay4 normSq3 dot3
  refine congrArg₂ (· + ·) (congrArg₂ (· - ·) ?_ (congrArg (two * ·) ?_)) ?_
  · refine (Cert.Lib.ColumnLayout.broadcastTo_a1_ab_apply _ broadcasts_S1024x1_S1024x1024 r c 0).trans ?_
    exact congrArg₂ (· + ·) (congrArg₂ (· + ·) q0 q1) q2
  · exact congrArg₂ (· + ·) (congrArg₂ (· + ·) d0 d1) d2
  · refine (broadcastTo_1b_ab_apply _ broadcasts_S1x1024_S1024x1024 r c).trans ?_
    exact congrFun (shapeCast_self x6 shapeCasts_S1x1024_S1x1024) _

/-- The least of a row, kept as a column: at (r, u) it is the fold of min from +∞ over the row. -/
theorem rowMin_apply (v : FVec Ideal S1024x1024 .f32) (hφ : FKind.Formats .f32)
    (hacc : (0x7F800000#32 : BitVec 32) = FKind.minimumf.neutral .f32 hφ) (r : Fin 1024) (u : Fin 1) :
    shapeCast S1024x1 (multiReduction .minimumf [1] S1024 v 0x7F800000#32 reduces_S1024x1024_S1024 hφ hacc)
        shapeCasts_S1024_S1024x1 (ix2 r u)
      = Finset.univ.fold min (Ideal.ofBits .f32 0x7F800000#32) (fun c : Fin 1024 => v (ix2 r c)) := by
  refine (Cert.Lib.ColumnLayout.shapeCast_a_a1_apply _ shapeCasts_S1024_S1024x1 r u).trans ?_
  refine (multiReduction_minimumf_eq_fold v 0x7F800000#32 reduces_S1024x1024_S1024 hφ hacc (ix1 r)).trans ?_
  refine (reduces_S1024x1024_S1024.fold_filter_drop_single FloatOps.minimumf _ v (ix1 r)).trans ?_
  exact congrArg (fun g => Finset.fold min (Ideal.ofBits .f32 0x7F800000#32) g (Finset.univ : Finset (Fin 1024)))
    (funext fun c => congrArg v (funext fun a => Fin.ext (by match a with | ⟨0, _⟩ => rfl | ⟨1, _⟩ => rfl)))

/-- The running least after a tile: at row r, the least of what was carried and of the tile's clamped
    entries along that row. -/
theorem pay2_apply (v35 : FVec Ideal S1024x1024 .f32) (v43 : Vec Ideal S1024x1 .f32) (r : Fin 1024) (u : Fin 1) :
    k0_pay2 v35 (Scalar.ofBits .f32 0x00000000#32) v43 (ix2 r u)
      = min (v43 (ix2 r u))
          (Finset.univ.fold min (Ideal.ofBits .f32 0x7F800000#32) fun c : Fin 1024 => max (v35 (ix2 r c)) zero) := by
  unfold k0_pay2
  refine (congrFun (shapeCast_self _ shapeCasts_S1024x1_S1024x1) (ix2 r u)).trans ?_
  exact congrArg (min (v43 (ix2 r u))) (rowMin_apply _ (.inl rfl) rfl r u)

/-- What the running least starts from: +∞ everywhere. -/
theorem pay1_apply (r : Fin 1024) (u : Fin 1) : k0_pay1 (F := Ideal) (ix2 r u) = Ideal.ofBits .f32 0x7F800000#32 := by
  unfold k0_pay1
  exact congrFun (shapeCast_self _ shapeCasts_S1024x1_S1024x1) (ix2 r u)

/-- The score written at the end: exp (d · (−1/2)) of the running least d. -/
theorem pay3_apply (v51 : Vec Ideal S1024x1 .f32) (r : Fin 1024) (u : Fin 1) :
    k0_pay3 v51 (ix2 r u) = Ideal.exp (v51 (ix2 r u) * negHalf) := rfl

end Cert.KernelIdeal.Tile

end
-- ==== Proof.FoundPieces.lean ====
/-
  What one grid point leaves behind, as values.

  At every point the body forms the tile of squared distances D from the point's seven input blocks,
  and stores into the running-least column the least of what the column held and of the row-wise least
  of the clamped tile. At the first fact tile of a query tile the column is first reset to +∞; at the
  last one the score exp (d · (−1/2)) of the updated column is written to the output block.
-/
import proofs.«158915_j20306605375522_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The updated running least, from the seven input blocks and the column carried in. -/
abbrev merged (x0 x1 x2 : Vec F S1024x128 .f32) (x3 x4 x5 : Vec F S1024x128 .bf16) (x6 : Vec F S1x1024 .f32)
    (acc : Vec F S1024x1 .f32) : Vec F S1024x1 .f32 :=
  k0_pay2 (k0_pay4 x0 x1 x2 x3 x4 x5 x6) (Scalar.ofBits .f32 0x00000000#32) acc

/-- At the first fact tile of a query tile the column ends as the merge into the reset column. -/
theorem scratch_first (c : Dev nD) (i : grid0.Coords) (a2 : Memref sig .tc .vmem S1024x128 .f32) (h2 : a2.IsWhole) (a3 : Memref sig .tc .vmem S1024x128 .f32) (h3 : a3.IsWhole) (a4 : Memref sig .tc .vmem S1024x128 .f32) (h4 : a4.IsWhole) (a5 : Memref sig .tc .vmem S1024x128 .bf16) (h5 : a5.IsWhole) (a6 : Memref sig .tc .vmem S1024x128 .bf16) (h6 : a6.IsWhole) (a7 : Memref sig .tc .vmem S1024x128 .bf16) (h7 : a7.IsWhole) (a8 : Memref sig .tc .vmem S1x1024 .f32) (h8 : a8.IsWhole) (a9 : Memref sig .tc .vmem S1024x1 .f32) (h9 : a9.IsWhole) (a10 : Memref sig .tc .vmem S1024x1 .f32) (h10 : a10.IsWhole) (hc0 : cond0_0 i) (hc1 : ¬cond0_1 i) (x0 x1 x2 : Vec F S1024x128 .f32) (x3 x4 x5 : Vec F S1024x128 .bf16) (x6 : Vec F S1x1024 .f32) :
    sout0_A_0 c i a2 h2 a3 h3 a4 h4 a5 h5 a6 h6 a7 h7 a8 h8 a9 h9 a10 h10 hc0 hc1 x0 x1 x2 x3 x4 x5 x6 = merged x0 x1 x2 x3 x4 x5 x6 (k0_pay1 (F := F)) := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5 x6)]
  unfold kernelRun0_A
  dsimp only
  sl_unfold_words
  rw [View.canon_cons_unit_zero (S := S1024x1) hz]
  simp only [View.readCov_unit_zero (S := S1024x1) _ hz, View.readAt_eq_ld, h2.read_unread, h3.read_unread, h4.read_unread, h5.read_unread, h6.read_unread, h7.read_unread, h8.read_unread, h10.read_unread, View.ld_unit_zero (S := S1024x128) hz, View.ld_unit_zero (S := S1x1024) hz, View.ld_unit_zero (S := S1024x1) hz]

/-- At a middle fact tile the column ends as the merge into what the point before left. -/
theorem scratch_middle (c : Dev nD) (i : grid0.Coords) (a2 : Memref sig .tc .vmem S1024x128 .f32) (h2 : a2.IsWhole) (a3 : Memref sig .tc .vmem S1024x128 .f32) (h3 : a3.IsWhole) (a4 : Memref sig .tc .vmem S1024x128 .f32) (h4 : a4.IsWhole) (a5 : Memref sig .tc .vmem S1024x128 .bf16) (h5 : a5.IsWhole) (a6 : Memref sig .tc .vmem S1024x128 .bf16) (h6 : a6.IsWhole) (a7 : Memref sig .tc .vmem S1024x128 .bf16) (h7 : a7.IsWhole) (a8 : Memref sig .tc .vmem S1x1024 .f32) (h8 : a8.IsWhole) (a9 : Memref sig .tc .vmem S1024x1 .f32) (h9 : a9.IsWhole) (a10 : Memref sig .tc .vmem S1024x1 .f32) (h10 : a10.IsWhole) (hc0 : ¬cond0_0 i) (hc1 : ¬cond0_1 i) (x0 x1 x2 : Vec F S1024x128 .f32) (x3 x4 x5 : Vec F S1024x128 .bf16) (x6 : Vec F S1x1024 .f32) (xs0 : Vec F S1024x1 .f32) :
    sout0_B_0 c i a2 h2 a3 h3 a4 h4 a5 h5 a6 h6 a7 h7 a8 h8 a9 h9 a10 h10 hc0 hc1 x0 x1 x2 x3 x4 x5 x6 xs0 = merged x0 x1 x2 x3 x4 x5 x6 xs0 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 x5 x6 xs0)]
  unfold kernelRun0_B
  dsimp only
  sl_unfold_words
  rw [View.canon_unit_zero hz]
  simp only [View.readCov_unit_zero (S := S1024x1) _ hz, View.readAt_eq_ld, h2.read_unread, h3.read_unread, h4.read_unread, h5.read_unread, h6.read_unread, h7.read_unread, h8.read_unread, h10.read_unread, View.ld_unit_zero (S := S1024x128) hz, View.ld_unit_zero (S := S1x1024) hz, View.ld_unit_zero (S := S1024x1) hz]

/-- At the last fact tile the column ends as the merge into what the point before left … -/
theorem scratch_last (c : Dev nD) (i : grid0.Coords) (a2 : Memref sig .tc .vmem S1024x128 .f32) (h2 : a2.IsWhole) (a3 : Memref sig .tc .vmem S1024x128 .f32) (h3 : a3.IsWhole) (a4 : Memref sig .tc .vmem S1024x128 .f32) (h4 : a4.IsWhole) (a5 : Memref sig .tc .vmem S1024x128 .bf16) (h5 : a5.IsWhole) (a6 : Memref sig .tc .vmem S1024x128 .bf16) (h6 : a6.IsWhole) (a7 : Memref sig .tc .vmem S1024x128 .bf16) (h7 : a7.IsWhole) (a8 : Memref sig .tc .vmem S1x1024 .f32) (h8 : a8.IsWhole) (a9 : Memref sig .tc .vmem S1024x1 .f32) (h9 : a9.IsWhole) (a10 : Memref sig .tc .vmem S1024x1 .f32) (h10 : a10.IsWhole) (hc0 : ¬cond0_0 i) (hc1 : cond0_1 i) (x0 x1 x2 : Vec F S1024x128 .f32) (x3 x4 x5 : Vec F S1024x128 .bf16) (x6 : Vec F S1x1024 .f32) (xs0 : Vec F S1024x1 .f32) :
    sout0_C_0 c i a2 h2 a3 h3 a4 h4 a5 h5 a6 h6 a7 h7 a8 h8 a9 h9 a10 h10 hc0 hc1 x0 x1 x2 x3 x4 x5 x6 xs0 = merged x0 x1 x2 x3 x4 x5 x6 xs0 := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz]
  simp only [View.readCov_unit_zero (S := S1024x1) _ hz, View.readAt_eq_ld, h2.read_unread, h3.read_unread, h4.read_unread, h5.read_unread, h6.read_unread, h7.read_unread, h8.read_unread, h10.read_unread, View.ld_unit_zero (S := S1024x128) hz, View.ld_unit_zero (S := S1x1024) hz, View.ld_unit_zero (S := S1024x1) hz]

/-- … and the output block holds the score of that merged column. -/
theorem out_last (c : Dev nD) (i : grid0.Coords) (a2 : Memref sig .tc .vmem S1024x128 .f32) (h2 : a2.IsWhole) (a3 : Memref sig .tc .vmem S1024x128 .f32) (h3 : a3.IsWhole) (a4 : Memref sig .tc .vmem S1024x128 .f32) (h4 : a4.IsWhole) (a5 : Memref sig .tc .vmem S1024x128 .bf16) (h5 : a5.IsWhole) (a6 : Memref sig .tc .vmem S1024x128 .bf16) (h6 : a6.IsWhole) (a7 : Memref sig .tc .vmem S1024x128 .bf16) (h7 : a7.IsWhole) (a8 : Memref sig .tc .vmem S1x1024 .f32) (h8 : a8.IsWhole) (a9 : Memref sig .tc .vmem S1024x1 .f32) (h9 : a9.IsWhole) (a10 : Memref sig .tc .vmem S1024x1 .f32) (h10 : a10.IsWhole) (hc0 : ¬cond0_0 i) (hc1 : cond0_1 i) (x0 x1 x2 : Vec F S1024x128 .f32) (x3 x4 x5 : Vec F S1024x128 .bf16) (x6 : Vec F S1x1024 .f32) (xs0 : Vec F S1024x1 .f32) :
    out0_C_7 c i a2 h2 a3 h3 a4 h4 a5 h5 a6 h6 a7 h7 a8 h8 a9 h9 a10 h10 hc0 hc1 x0 x1 x2 x3 x4 x5 x6 xs0 = k0_pay3 (merged x0 x1 x2 x3 x4 x5 x6 xs0) := by
  unfold out0_C_7
  rw [View.read_writes_eq_canon _ _ _ (cover0_C_7 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz]
  simp only [View.readCov_unit_zero (S := S1024x1) _ hz, View.readAt_eq_ld, h2.read_unread, h3.read_unread, h4.read_unread, h5.read_unread, h6.read_unread, h7.read_unread, h8.read_unread, h10.read_unread, View.ld_unit_zero (S := S1024x128) hz, View.ld_unit_zero (S := S1x1024) hz, View.ld_unit_zero (S := S1024x1) hz]

end Cert.KernelIdeal.Pieces

end
-- ==== Proof.RunningLeast.lean ====
/-
  The running least over the fact tiles, and the score written at the end of a query tile.

  Fix a query row b. After the point that handles fact tile j of b's query tile, the carried column
  holds at b the least clamped distance from b to the facts below (j + 1)·1024: the first tile starts
  from +∞, every tile merges in its own row-wise least, and the facts below (j + 1)·1024 are those below
  j·1024 together with tile j's. After the last tile (j = 63) that is the least over all 65536 facts,
  and the output block receives its score.
-/
import proofs.«158915_j20306605375522_2_alg».proof.Proof.Gen.KernelIdeal.Frame
import proofs.«158915_j20306605375522_2_alg».proof.Proof.NearestFactSpec
import proofs.«158915_j20306605375522_2_alg».proof.Proof.NearestFactLaw
import proofs.«158915_j20306605375522_2_alg».proof.Proof.TileDistance
import proofs.«158915_j20306605375522_2_alg».proof.Proof.BlockReads
import proofs.«158915_j20306605375522_2_alg».proof.Proof.FoundPieces
import Idealize.ShloMosaic.Lib.ValueIdx

noncomputable section

open scoped BigOperators

namespace Cert.KernelIdeal.Least

open Cert.KernelIdeal Cert.KernelIdeal.Gen Idealize.ShloMosaic Idealize.ShloMosaic.TcCoe Idealize.SL.Sem
open Idealize.ShloMosaic.ValueIdx Cert.NearestFact Cert.KernelIdeal.Blocks

variable (m : (ℓ : Loc nD τ sig) → Buf (Elt Ideal) ℓ)

/-- The merged column at row r: the least of what was carried and of the clamped distances from the
    tile's query r to each of the tile's facts, for blocks whose entries are named by `Q·`, `P·`, `N6`. -/
theorem merged_apply (x0 x1 x2 : Vec Ideal S1024x128 .f32) (x3 x4 x5 : Vec Ideal S1024x128 .bf16)
    (x6 : Vec Ideal S1x1024 .f32) (acc : Vec Ideal S1024x1 .f32)
    (Q0 Q1 Q2 P3 P4 P5 : Fin 1024 → Fin 128 → EReal) (N6 : Fin 1024 → EReal)
    (h0 : ∀ r k, x0 (ix2 r k) = Q0 r k) (h1 : ∀ r k, x1 (ix2 r k) = Q1 r k) (h2 : ∀ r k, x2 (ix2 r k) = Q2 r k)
    (h3 : ∀ r k, x3 (ix2 r k) = P3 r k) (h4 : ∀ r k, x4 (ix2 r k) = P4 r k) (h5 : ∀ r k, x5 (ix2 r k) = P5 r k)
    (h6 : ∀ k, x6 (ix2 (0 : Fin 1) k) = N6 k) (r : Fin 1024) (u : Fin 1) :
    Pieces.merged x0 x1 x2 x3 x4 x5 x6 acc (ix2 r u)
      = min (acc (ix2 r u)) (Finset.univ.inf fun k : Fin 1024 =>
          clampDist (normSq3 (Q0 r) (Q1 r) (Q2 r)) (dot3 (Q0 r) (Q1 r) (Q2 r) (P3 k) (P4 k) (P5 k)) (N6 k)) := by
  refine (Tile.pay2_apply _ acc r u).trans ?_
  rw [fold_min_posInf]
  refine congrArg (min (acc (ix2 r u))) (Finset.inf_congr rfl fun k _ => ?_)
  rw [Tile.pay4_apply]
  unfold clampDist
  simp only [h0, h1, h2, h3, h4, h5, h6]

/-- The clamped distance from query b to fact f, from the arrays as the region finds them. -/
def distRow (c : Dev nD) (b : Fin 2048) (f : Fin 65536) : EReal :=
  clampDist
    (normSq3 (fun k : Fin 128 => V m c main_arg0 (ix2 b k)) (fun k => V m c main_arg1 (ix2 b k))
      (fun k => V m c main_arg2 (ix2 b k)))
    (dot3 (fun k : Fin 128 => V m c main_arg0 (ix2 b k)) (fun k => V m c main_arg1 (ix2 b k))
      (fun k => V m c main_arg2 (ix2 b k)) (fun k => V m c main_v0 (ix2 f k)) (fun k => V m c main_v1 (ix2 f k))
      (fun k => V m c main_v2 (ix2 f k)))
    (V m c main_v11 (ix2 (0 : Fin 1) f))

/-- The merge at point `t`, on that point's blocks: row r is query `qrow t r`, column k is fact `fcol t k`. -/
theorem merged_at (c : Dev nD) (t : Fin cfg0.N) (acc : Vec Ideal S1024x1 .f32) (r : Fin 1024) (u : Fin 1) :
    Pieces.merged (iblk m c 0 t) (iblk m c 1 t) (iblk m c 2 t) (iblk m c 3 t) (iblk m c 4 t) (iblk m c 5 t) (iblk m c 6 t) acc (ix2 r u)
      = min (acc (ix2 r u)) (Finset.univ.inf fun k : Fin 1024 => distRow m c (qrow t r) (fcol t k)) := by
  unfold distRow
  exact merged_apply (iblk m c 0 t) (iblk m c 1 t) (iblk m c 2 t) (iblk m c 3 t) (iblk m c 4 t) (iblk m c 5 t) (iblk m c 6 t) acc
    (fun r k => V m c main_arg0 (ix2 (qrow t r) k)) (fun r k => V m c main_arg1 (ix2 (qrow t r) k))
    (fun r k => V m c main_arg2 (ix2 (qrow t r) k)) (fun r k => V m c main_v0 (ix2 (fcol t r) k))
    (fun r k => V m c main_v1 (ix2 (fcol t r) k)) (fun r k => V m c main_v2 (ix2 (fcol t r) k))
    (fun k => V m c main_v11 (ix2 (0 : Fin 1) (fcol t k)))
    (iblk0_apply m c t) (iblk1_apply m c t) (iblk2_apply m c t) (iblk3_apply m c t) (iblk4_apply m c t)
    (iblk5_apply m c t) (iblk6_apply m c t 0) r u

/-- The least clamped distance from query b to the facts below `n`. -/
def leastBelow (c : Dev nD) (b : Fin 2048) (n : ℕ) : EReal :=
  (Finset.univ.filter fun f : Fin 65536 => f.val < n).inf (distRow m c b)

/-- Taking in one more tile of 1024 facts. -/
theorem leastBelow_succ (c : Dev nD) (t : Fin cfg0.N) (r : Fin 1024) :
    leastBelow m c (qrow t r) ((t.val % 64 + 1) * 1024)
      = min (leastBelow m c (qrow t r) (t.val % 64 * 1024))
          (Finset.univ.inf fun k : Fin 1024 => distRow m c (qrow t r) (fcol t k)) :=
  inf_below_succ_block (distRow m c (qrow t r)) (t.val % 64) 1024 (by omega)

/-- Before any fact the least is +∞. -/
theorem leastBelow_zero (c : Dev nD) (b : Fin 2048) : leastBelow m c b 0 = ⊤ := by
  unfold leastBelow
  exact inf_below_zero _

/-- At the first fact tile of a query tile the carried column is the least over that tile's facts. -/
theorem carried_first (c : Dev nD) (t : Fin cfg0.N) (h0 : t.val % 64 = 0) (r : Fin 1024) (u : Fin 1) :
    (outsAt0 m c t.val t.isLt).2 (ix2 r u) = leastBelow m c (qrow t r) ((t.val % 64 + 1) * 1024) := by
  have h1 : ¬t.val % 64 = 63 := by omega
  have hp := Pieces.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0)
    (fun hh => h1 ((hcond0_1 t).mp hh)) (iblk m c 0 t) (iblk m c 1 t) (iblk m c 2 t) (iblk m c 3 t) (iblk m c 4 t) (iblk m c 5 t) (iblk m c 6 t)
  rw [outsAt0_A m c t h0 h1]
  rw [hp]
  refine (merged_at m c t (k0_pay1 (F := Ideal)) r u).trans ?_
  rw [leastBelow_succ m c t r, Tile.pay1_apply, ofBits_posInf, h0, Nat.zero_mul, leastBelow_zero]

/-- At any later fact tile it is the least of what the point before left and of that tile's facts. -/
theorem carried_next (c : Dev nD) (t : Fin cfg0.N) (h0 : ¬t.val % 64 = 0) (r : Fin 1024) (u : Fin 1) :
    (outsAt0 m c t.val t.isLt).2 (ix2 r u)
      = min ((outsAt0 m c (t.val - 1) (Nat.lt_of_le_of_lt (Nat.sub_le _ _) t.isLt)).2 (ix2 r u))
          (Finset.univ.inf fun k : Fin 1024 => distRow m c (qrow t r) (fcol t k)) := by
  by_cases h1 : t.val % 64 = 63
  · have hp := Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun hh => h0 ((hcond0_0 t).mp hh))
      ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
    rw [outsAt0_C m c t h0 h1]
    rw [hp]
    exact merged_at m c t (outsAt0 m c (t.val - 1) (Nat.lt_of_le_of_lt (Nat.sub_le _ _) t.isLt)).2 r u
  · have hp := Pieces.scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun hh => h0 ((hcond0_0 t).mp hh))
      (fun hh => h1 ((hcond0_1 t).mp hh)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
    rw [outsAt0_B m c t h0 h1]
    rw [hp]
    exact merged_at m c t (outsAt0 m c (t.val - 1) (Nat.lt_of_le_of_lt (Nat.sub_le _ _) t.isLt)).2 r u

/-- THE INVARIANT: after the point at position `n`, the carried column holds, at row r, the least clamped
    distance from that row's query to the facts below (n % 64 + 1)·1024. -/
theorem carried_eq (c : Dev nD) : ∀ (n : ℕ) (h : n < cfg0.N) (r : Fin 1024) (u : Fin 1),
    (outsAt0 m c n h).2 (ix2 r u) = leastBelow m c (qrow ⟨n, h⟩ r) ((n % 64 + 1) * 1024)
  | 0, h, r, u => carried_first m c ⟨0, h⟩ rfl r u
  | n + 1, h, r, u => by
    have hN : n + 1 < 128 := lt_of_lt_of_eq h N_0
    by_cases h0 : (n + 1) % 64 = 0
    · exact carried_first m c ⟨n + 1, h⟩ h0 r u
    · have ih := carried_eq c n (Nat.lt_of_succ_lt h) r u
      have hq : qrow ⟨n, Nat.lt_of_succ_lt h⟩ r = qrow ⟨n + 1, h⟩ r := Fin.ext (by
        show n / 64 * 1024 + r.val = (n + 1) / 64 * 1024 + r.val; omega)
      have hj : (n % 64 + 1) * 1024 = (n + 1) % 64 * 1024 := by omega
      rw [hq, hj] at ih
      refine (carried_next m c ⟨n + 1, h⟩ h0 r u).trans ?_
      rw [leastBelow_succ m c ⟨n + 1, h⟩ r]
      exact congrArg₂ min ih rfl

end Cert.KernelIdeal.Least

end
-- ==== Proof.FinalScores.lean ====
/-
  The array the grid leaves, and the vector the program returns.

  The output array [2048, 1] is written back once per query tile, after the tile's last fact tile, in
  blocks of 1024 rows; the two blocks tile the array. Each written block holds, at row r, the score of
  the least clamped distance from that row's query to all 65536 facts. After the grid the column is
  laid out as a vector of 2048 scores.
-/
import proofs.«158915_j20306605375522_2_alg».proof.Proof.Gen.KernelIdeal.Frame
import proofs.«158915_j20306605375522_2_alg».proof.Proof.NearestFactSpec
import proofs.«158915_j20306605375522_2_alg».proof.Proof.NearestFactLaw
import proofs.«158915_j20306605375522_2_alg».proof.Proof.TileDistance
import proofs.«158915_j20306605375522_2_alg».proof.Proof.BlockReads
import proofs.«158915_j20306605375522_2_alg».proof.Proof.FoundPieces
import proofs.«158915_j20306605375522_2_alg».proof.Proof.RunningLeast
import Idealize.ShloMosaic.Lib.ValueIdx
import Idealize.ShloMosaic.Lib.Pipeline.Value
import Idealize.ShloMosaic.Lib.StableHlo.Run

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx Cert.NearestFact Cert.KernelIdeal.Blocks Cert.KernelIdeal.Least
open Idealize.ShloMosaic.Pipeline (Dat)

variable (m : (ℓ : Loc nD τ sig) → Buf (Elt Ideal) ℓ) (ρ : Dev nD → PrngReg)

/-- At the last fact tile of a query tile the output block holds the score of the carried column. -/
theorem out_eq_score (c : Dev nD) (t : Fin cfg0.N) (h1 : t.val % 64 = 63) (r : Fin 1024) (u : Fin 1) :
    (outsAt0 m c t.val t.isLt).1 (ix2 r u) = Ideal.exp ((outsAt0 m c t.val t.isLt).2 (ix2 r u) * negHalf) := by
  have h0 : ¬t.val % 64 = 0 := by omega
  have hO := Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun hh => h0 ((hcond0_0 t).mp hh))
    ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
  have hS := Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun hh => h0 ((hcond0_0 t).mp hh))
    ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
  rw [outsAt0_C m c t h0 h1]
  rw [hO, hS]
  exact Tile.pay3_apply _ r u

/-- So it holds the score of the nearest of ALL facts to that row's query. -/
theorem out_at_last (c : Dev nD) (t : Fin cfg0.N) (h63 : t.val % 64 = 63) (r : Fin 1024) (u : Fin 1) :
    (outsAt0 m c t.val t.isLt).1 (ix2 r u) = scoreOfNearest (distRow m c (qrow t r)) := by
  rw [out_eq_score m c t h63 r u, carried_eq m c t.val t.isLt r u]
  unfold scoreOfNearest leastBelow
  rw [show (t.val % 64 + 1) * 1024 = 65536 from by omega, inf_below_all]

/-- The output array after the grid: at row b, the score of the nearest fact to query b. -/
def scores (c : Dev nD) : Buf (Elt Ideal) ((c : Thread nD τ).loc main_v12) :=
  fun i => scoreOfNearest (distRow m c ⟨(i 0).val, idx2_lt0 i⟩)

/-- The same at any index of the block. -/
theorem out_at_last_idx (c : Dev nD) (t : Fin cfg0.N) (h63 : t.val % 64 = 63) (j : S1024x1.Idx) :
    (outsAt0 m c t.val t.isLt).1 j = scoreOfNearest (distRow m c (qrow t ⟨(j 0).val, idx2_lt0 j⟩)) := by
  obtain ⟨r, u, rfl⟩ : ∃ (r : Fin 1024) (u : Fin 1), j = ix2 r u := ⟨j 0, j 1, eq_ix2 j⟩
  exact out_at_last m c t h63 r u

set_option maxRecDepth 200000 in
/-- What a writing point writes back is its block of `scores`. -/
theorem flushed_eq (c : Dev nD) (t : Fin cfg0.N) (hf : (cfg0.win 7).flush t = true) :
    (dats m 0 c).flushed 7 t = ((cfg0.win 7).blk t).view.read (Elt Ideal) (scores m c) := by
  have h63 : t.val % 64 = 63 := (flush0_7 t).mp hf
  show (cfg0.win 7).cut (grid0.coords t) ((dats m 0 c).after 7 t) = _
  rw [after0_7]
  funext y
  rw [View.read_apply]
  refine (out_at_last_idx m c t h63 ((cfg0.win 7).xinj (grid0.coords t) y)).trans ?_
  unfold scores
  refine congrArg (fun b => scoreOfNearest (distRow m c b)) (Fin.ext ?_)
  show t.val / 64 * 1024 + (y 0).val = win0_7.index t 0 * 1024 + 1 * (y 0).val
  rw [(idxO t).1]; omega

/-- An index of the array is in point `t`'s block iff each coordinate is in the block's range. -/
theorem mem_blk (t : Fin cfg0.N) (i : S2048x1.Idx) :
    i ∈ ((cfg0.win 7).blk t).view.set ↔ ∀ a : Fin 2, win0_7.index t a * S1024x1.size a ≤ (i a).val
      ∧ (i a).val < win0_7.index t a * S1024x1.size a + S1024x1.size a := by
  show i ∈ ((View.whole main_v12).slice (win0_7.rect t)).set ↔ _
  rw [View.set_slice_whole, Rect.mem_set_unit]
  exact Iff.rfl

/-- Every row of the array is in the block written after its query tile's last fact tile. -/
theorem cover (i : S2048x1.Idx) :
    ∃ t : Fin cfg0.N, (cfg0.win 7).flush t = true ∧ i ∈ ((cfg0.win 7).blk t).view.set := by
  have hi0 : (i 0).val < 2048 := idx2_lt0 i
  have hi1 : (i 1).val < 1 := idx2_lt1 i
  have hN : cfg0.N = 128 := N_0
  have ht : (i 0).val / 1024 * 64 + 63 < cfg0.N := by rw [hN]; omega
  refine ⟨⟨(i 0).val / 1024 * 64 + 63, ht⟩, (flush0_7 _).mpr (by show ((i 0).val / 1024 * 64 + 63) % 64 = 63; omega), ?_⟩
  rw [mem_blk]
  have e := idxO ⟨(i 0).val / 1024 * 64 + 63, ht⟩
  intro a
  match a with
  | ⟨0, _⟩ =>
    show win0_7.index _ 0 * 1024 ≤ (i 0).val ∧ (i 0).val < win0_7.index _ 0 * 1024 + 1024
    rw [e.1]
    show ((i 0).val / 1024 * 64 + 63) / 64 * 1024 ≤ (i 0).val ∧ (i 0).val < ((i 0).val / 1024 * 64 + 63) / 64 * 1024 + 1024
    omega
  | ⟨1, _⟩ =>
    show win0_7.index _ 1 * 1 ≤ (i 1).val ∧ (i 1).val < win0_7.index _ 1 * 1 + 1
    rw [e.2]; omega

/-- THE OUTPUT ARRAY after the grid is `scores`. -/
theorem final (c : Dev nD) : (dats m 0 c).arrAt 7 cfg0.N = scores m c :=
  (dats m 0 c).arrAt_eq_of_cover 7 (scores m c) (flushed_eq m c) cover

end Cert.KernelIdeal.Final

end
-- ==== Proof.KernelRun.lean ====
/-
  The idealized kernel's run, read: the returned vector is, at every query b, the score of the nearest
  fact — the best score over all facts — as a function of the six argument arrays.

  The distances the grid works with are stated over the arrays as the region finds them; the query
  arrays are the arguments themselves, the narrowed fact arrays are the arguments read in another format
  (the identity on the extended reals), and the row of squared fact norms is the part-by-part squared
  norm of each fact. The output column [2048, 1] is finally laid out as a vector [2048].
-/
import proofs.«158915_j20306605375522_2_alg».proof.Proof.Gen.KernelIdeal.Frame
import proofs.«158915_j20306605375522_2_alg».proof.Proof.NearestFactSpec
import proofs.«158915_j20306605375522_2_alg».proof.Proof.NearestFactLaw
import proofs.«158915_j20306605375522_2_alg».proof.Proof.BlockReads
import proofs.«158915_j20306605375522_2_alg».proof.Proof.RunningLeast
import proofs.«158915_j20306605375522_2_alg».proof.Proof.FinalScores
import Idealize.ShloMosaic.Lib.ValueIdx
import Idealize.ShloMosaic.Lib.Pipeline.Value
import Idealize.ShloMosaic.Lib.StableHlo.Run

noncomputable section

open scoped BigOperators

namespace Cert.KernelIdeal.Run

open Cert.KernelIdeal Cert.KernelIdeal.Gen Idealize.ShloMosaic Idealize.ShloMosaic.TcCoe Idealize.SL.Sem
open Idealize.ShloMosaic.ValueIdx Cert.NearestFact Cert.KernelIdeal.Blocks Cert.KernelIdeal.Least Cert.KernelIdeal.Final
open Idealize.ShloMosaic.Pipeline (Dat)

variable (m : (ℓ : Loc nD τ sig) → Buf (Elt Ideal) ℓ) (ρ : Dev nD → PrngReg)

/-- The clamped distance from query b to fact f, over the six argument arrays. -/
def argDist (c : Dev nD) (b : Fin 2048) (f : Fin 65536) : EReal :=
  dist (fun k : Fin 128 => m ((c.tc : Thread nD τ).loc main_arg0) (ix2 b k))
    (fun k => m ((c.tc : Thread nD τ).loc main_arg1) (ix2 b k))
    (fun k => m ((c.tc : Thread nD τ).loc main_arg2) (ix2 b k))
    (fun k => m ((c.tc : Thread nD τ).loc main_arg3) (ix2 f k))
    (fun k => m ((c.tc : Thread nD τ).loc main_arg4) (ix2 f k))
    (fun k => m ((c.tc : Thread nD τ).loc main_arg5) (ix2 f k))

/-- The distances the grid works with are those of the arguments. -/
theorem distRow_eq (c : Dev nD) (b : Fin 2048) (f : Fin 65536) : distRow m c b f = argDist m c b f := by
  unfold distRow argDist Cert.NearestFact.dist
  rw [V_main_arg0 m c, V_main_arg1 m c, V_main_arg2 m c, V_fact0 m c, V_fact1 m c, V_fact2 m c, V_factNorms m c,
    factNorms_apply]
  rfl

/-- The vector the program returns: at b, the best score over all facts. -/
def result (c : Dev nD) : Buf (Elt Ideal) ((c : Thread nD τ).loc main_v13) :=
  fun i => bestScore (argDist m c ⟨(i 0).val, (i 0).isLt⟩)

/-- The output column laid out as a vector is `result`. -/
theorem cast_scores (c : Dev nD) : shapeCast S2048 (scores m c) shapeCasts_S2048x1_S2048 = result m c := by
  refine funext fun (i : S2048.Idx) => ?_
  obtain ⟨b, rfl⟩ : ∃ b : Fin 2048, i = ix1 b := ⟨i 0, eq_ix1 i⟩
  refine (shapeCast_apply (scores m c : S2048x1.Idx → EReal) shapeCasts_S2048x1_S2048 (ix1 b) (ix2 b (0 : Fin 1)) (by
    show (S2048x1.rowMajor (ix2 b (0 : Fin 1))).val = (S2048.rowMajor (ix1 b)).val
    rw [Shape.rowMajor_val_two, Shape.rowMajor_val_one]
    show b.val * 1 + 0 = b.val
    omega)).trans ?_
  show scoreOfNearest (distRow m c b) = bestScore (argDist m c b)
  rw [show distRow m c b = argDist m c b from funext (distRow_eq m c b)]
  exact scoreOfNearest_eq_bestScore _

/-- What the line after the region leaves in the result buffer. -/
theorem tail_eq (c : Dev nD) :
    Pipeline.afterTail₀ cfgs (dats m) 0 (V0 m) [hostOps1] c main_v13 = result m c := by
  unfold Pipeline.afterTail₀
  show StableHlo.after hostOps1 _ (Proc.devRef .tc main_v13) = _
  after_results
  have e : Pipeline.withArrays (cfgs 0).spec c (V0 m c) (fun w => (dats m 0 c).arrAt w (cfgs 0).N)
      (Proc.devRef .tc main_v12) = scores m c :=
    (Pipeline.withArrays_arr spec0 launch0.win.arr_inj c _ _ 7).trans (final m c)
  rw [e]
  exact cast_scores m c

/-- THE RUN: every weakly fair execution terminates with the result buffer at `result` and the six
    argument arrays unchanged. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.LibConcatAt.lean ====
/-
  Concatenations and reversals read at an index given by its coordinates.

  For any element type and any extents:
    * a concatenation of a LIST of pieces along the rows (axis 0) or along the columns (axis 1) of
      a matrix, read at (p, l): piece k, whose span along the axis starts at `pre` (the extents
      of the pieces before it added up), at the index with the axis coordinate `pre` less;
    * a concatenation of TWO pieces along axis 1 or axis 2 of a rank-4 array, read at (a, p, c, e)
      or (a, b, p, e): the first piece at the same coordinates when p is below its extent, the
      second at the axis coordinate less the first extent otherwise;
    * a reversal along axis 1 or axis 2 of a rank-4 array: the operand at the mirrored coordinate
      on that axis (extent - 1 - coordinate), the other coordinates kept.
  Each is the library's general statement (Lib/Pipeline/Value.lean `concatenate_apply_piece`,
  `concatenate_pair_apply_left` / `_right`; PureOps/ShapeOps.lean `Host.reverse`) with the
  per-axis side conditions discharged once.
-/
import Idealize.ShloMosaic.Lib.Pipeline.Value
import Idealize.ShloMosaic.Lib.ValueIdx

namespace Cert.ConcatAt

open Idealize.ShloMosaic Idealize.ShloMosaic.ValueIdx

variable {α : Type}

/-- Pieces stacked along the ROWS of a matrix: row `p` falls in piece `k`, at its row `r = p - pre`. -/
theorem rows_piece {t0 t1 : ℕ} (xs : List ((s : Shape) × (s.Idx → α)))
    (h : Shape.Concatenates (xs.map (·.1)) (⟨2, ![t0, t1]⟩ : Shape) (0 : Fin 2))
    (p : Fin t0) (l : Fin t1) (k : ℕ) (hk : k < xs.length) {m : ℕ} (x₁ : (⟨2, ![m, t1]⟩ : Shape).Idx → α)
    (hxk : xs[k] = ⟨(⟨2, ![m, t1]⟩ : Shape), x₁⟩) (pre : ℕ)
    (hpre : (((xs.take k).map (·.1)).map fun s =>
      if h : s.rank = (⟨2, ![t0, t1]⟩ : Shape).rank then s.size ((0 : Fin 2).cast h.symm) else 0).sum = pre)
    (r : Fin m) (hr : pre + r.val = p.val) :
    concatenate (⟨2, ![t0, t1]⟩ : Shape) (0 : Fin 2) xs h (ix2 p l) = x₁ (ix2 r l) :=
  concatenate_apply_piece (t := (⟨2, ![t0, t1]⟩ : Shape)) (0 : Fin 2) xs h (ix2 p l) k hk _ x₁ hxk rfl pre hpre (ix2 r l)
    (fun b hb => by
      match b with
      | ⟨0, _⟩ => exact absurd rfl hb
      | ⟨1, _⟩ => rfl)
    (by exact hr)

/-- Pieces laid side by side along the COLUMNS of a matrix: column `q` falls in piece `k`, at its column `r = q - pre`. -/
theorem cols_piece {t0 t1 : ℕ} (xs : List ((s : Shape) × (s.Idx → α)))
    (h : Shape.Concatenates (xs.map (·.1)) (⟨2, ![t0, t1]⟩ : Shape) (1 : Fin 2))
    (p : Fin t0) (q : Fin t1) (k : ℕ) (hk : k < xs.length) {m : ℕ} (x₁ : (⟨2, ![t0, m]⟩ : Shape).Idx → α)
    (hxk : xs[k] = ⟨(⟨2, ![t0, m]⟩ : Shape), x₁⟩) (pre : ℕ)
    (hpre : (((xs.take k).map (·.1)).map fun s =>
      if h : s.rank = (⟨2, ![t0, t1]⟩ : Shape).rank then s.size ((1 : Fin 2).cast h.symm) else 0).sum = pre)
    (r : Fin m) (hr : pre + r.val = q.val) :
    concatenate (⟨2, ![t0, t1]⟩ : Shape) (1 : Fin 2) xs h (ix2 p q) = x₁ (ix2 p r) :=
  concatenate_apply_piece (t := (⟨2, ![t0, t1]⟩ : Shape)) (1 : Fin 2) xs h (ix2 p q) k hk _ x₁ hxk rfl pre hpre (ix2 p r)
    (fun b hb => by
      match b with
      | ⟨0, _⟩ => rfl
      | ⟨1, _⟩ => exact absurd rfl hb)
    (by exact hr)

/-- Two pieces along axis 1 of a rank-4 array, the coordinate in the FIRST. -/
theorem axis1_left {n0 n2 n3 m1 m2 t1 : ℕ} (x₁ : (⟨4, ![n0, m1, n2, n3]⟩ : Shape).Idx → α)
    (x₂ : (⟨4, ![n0, m2, n2, n3]⟩ : Shape).Idx → α)
    (h : Shape.Concatenates [(⟨4, ![n0, m1, n2, n3]⟩ : Shape), ⟨4, ![n0, m2, n2, n3]⟩] (⟨4, ![n0, t1, n2, n3]⟩ : Shape) (1 : Fin 4))
    (a : Fin n0) (p : Fin t1) (c : Fin n2) (e : Fin n3) (r : Fin m1) (hr : r.val = p.val) :
    concatenate (⟨4, ![n0, t1, n2, n3]⟩ : Shape) (1 : Fin 4) [⟨_, x₁⟩, ⟨_, x₂⟩] h (ix4 a p c e) = x₁ (ix4 a r c e) :=
  concatenate_pair_apply_left (t := (⟨4, ![n0, t1, n2, n3]⟩ : Shape)) (1 : Fin 4) x₁ x₂ h (ix4 a p c e) rfl (ix4 a r c e) (fun b => by
    match b with
    | ⟨0, _⟩ => rfl
    | ⟨1, _⟩ => exact hr
    | ⟨2, _⟩ => rfl
    | ⟨3, _⟩ => rfl)

/-- Two pieces along axis 1 of a rank-4 array, the coordinate in the SECOND. -/
theorem axis1_right {n0 n2 n3 m1 m2 t1 : ℕ} (x₁ : (⟨4, ![n0, m1, n2, n3]⟩ : Shape).Idx → α)
    (x₂ : (⟨4, ![n0, m2, n2, n3]⟩ : Shape).Idx → α)
    (h : Shape.Concatenates [(⟨4, ![n0, m1, n2, n3]⟩ : Shape), ⟨4, ![n0, m2, n2, n3]⟩] (⟨4, ![n0, t1, n2, n3]⟩ : Shape) (1 : Fin 4))
    (a : Fin n0) (p : Fin t1) (c : Fin n2) (e : Fin n3) (r : Fin m2) (hr : r.val + m1 = p.val) :
    concatenate (⟨4, ![n0, t1, n2, n3]⟩ : Shape) (1 : Fin 4) [⟨_, x₁⟩, ⟨_, x₂⟩] h (ix4 a p c e) = x₂ (ix4 a r c e) :=
  concatenate_pair_apply_right (t := (⟨4, ![n0, t1, n2, n3]⟩ : Shape)) (1 : Fin 4) x₁ x₂ h (ix4 a p c e) rfl rfl (ix4 a r c e) (fun b hb => by
    match b with
    | ⟨0, _⟩ => rfl
    | ⟨1, _⟩ => exact absurd rfl hb
    | ⟨2, _⟩ => rfl
    | ⟨3, _⟩ => rfl) (by exact hr)

/-- Two pieces along axis 2 of a rank-4 array, the coordinate in the FIRST. -/
theorem axis2_left {n0 n1 n3 m1 m2 t2 : ℕ} (x₁ : (⟨4, ![n0, n1, m1, n3]⟩ : Shape).Idx → α)
    (x₂ : (⟨4, ![n0, n1, m2, n3]⟩ : Shape).Idx → α)
    (h : Shape.Concatenates [(⟨4, ![n0, n1, m1, n3]⟩ : Shape), ⟨4, ![n0, n1, m2, n3]⟩] (⟨4, ![n0, n1, t2, n3]⟩ : Shape) (2 : Fin 4))
    (a : Fin n0) (b : Fin n1) (p : Fin t2) (e : Fin n3) (r : Fin m1) (hr : r.val = p.val) :
    concatenate (⟨4, ![n0, n1, t2, n3]⟩ : Shape) (2 : Fin 4) [⟨_, x₁⟩, ⟨_, x₂⟩] h (ix4 a b p e) = x₁ (ix4 a b r e) :=
  concatenate_pair_apply_left (t := (⟨4, ![n0, n1, t2, n3]⟩ : Shape)) (2 : Fin 4) x₁ x₂ h (ix4 a b p e) rfl (ix4 a b r e) (fun d => by
    match d with
    | ⟨0, _⟩ => rfl
    | ⟨1, _⟩ => rfl
    | ⟨2, _⟩ => exact hr
    | ⟨3, _⟩ => rfl)

/-- Two pieces along axis 2 of a rank-4 array, the coordinate in the SECOND. -/
theorem axis2_right {n0 n1 n3 m1 m2 t2 : ℕ} (x₁ : (⟨4, ![n0, n1, m1, n3]⟩ : Shape).Idx → α)
    (x₂ : (⟨4, ![n0, n1, m2, n3]⟩ : Shape).Idx → α)
    (h : Shape.Concatenates [(⟨4, ![n0, n1, m1, n3]⟩ : Shape), ⟨4, ![n0, n1, m2, n3]⟩] (⟨4, ![n0, n1, t2, n3]⟩ : Shape) (2 : Fin 4))
    (a : Fin n0) (b : Fin n1) (p : Fin t2) (e : Fin n3) (r : Fin m2) (hr : r.val + m1 = p.val) :
    concatenate (⟨4, ![n0, n1, t2, n3]⟩ : Shape) (2 : Fin 4) [⟨_, x₁⟩, ⟨_, x₂⟩] h (ix4 a b p e) = x₂ (ix4 a b r e) :=
  concatenate_pair_apply_right (t := (⟨4, ![n0, n1, t2, n3]⟩ : Shape)) (2 : Fin 4) x₁ x₂ h (ix4 a b p e) rfl rfl (ix4 a b r e) (fun d hd => by
    match d with
    | ⟨0, _⟩ => rfl
    | ⟨1, _⟩ => rfl
    | ⟨2, _⟩ => exact absurd rfl hd
    | ⟨3, _⟩ => rfl) (by exact hr)

/-- The one-element axis list does not hold another axis. -/
private theorem not_mem_single {N : ℕ} {a b : Fin N} (h : a.val ≠ b.val) : a ∉ [b] :=
  fun hm => Fin.ne_of_val_ne h (List.mem_singleton.mp hm)

/-- A rank-4 array reversed along axis 1 reads the mirrored coordinate there. -/
theorem reverse_axis1 {n0 n1 n2 n3 : ℕ} (v : (⟨4, ![n0, n1, n2, n3]⟩ : Shape).Idx → α)
    (a : Fin n0) (j : Fin n1) (c : Fin n2) (e : Fin n3) :
    Host.reverse (s := (⟨4, ![n0, n1, n2, n3]⟩ : Shape)) [(1 : Fin 4)] v (ix4 a j c e) = v (ix4 a j.rev c e) := by
  unfold Host.reverse
  refine congrArg v (funext fun d => ?_)
  match d with
  | ⟨0, _⟩ => exact if_neg (not_mem_single (N := 4) (b := 1) (show (0 : ℕ) ≠ 1 by omega))
  | ⟨1, _⟩ => exact if_pos (List.mem_singleton.mpr (Fin.ext rfl))
  | ⟨2, _⟩ => exact if_neg (not_mem_single (N := 4) (b := 1) (show (2 : ℕ) ≠ 1 by omega))
  | ⟨3, _⟩ => exact if_neg (not_mem_single (N := 4) (b := 1) (show (3 : ℕ) ≠ 1 by omega))

/-- A rank-4 array reversed along axis 2 reads the mirrored coordinate there. -/
theorem reverse_axis2 {n0 n1 n2 n3 : ℕ} (v : (⟨4, ![n0, n1, n2, n3]⟩ : Shape).Idx → α)
    (a : Fin n0) (b : Fin n1) (j : Fin n2) (e : Fin n3) :
    Host.reverse (s := (⟨4, ![n0, n1, n2, n3]⟩ : Shape)) [(2 : Fin 4)] v (ix4 a b j e) = v (ix4 a b j.rev e) := by
  unfold Host.reverse
  refine congrArg v (funext fun d => ?_)
  match d with
  | ⟨0, _⟩ => exact if_neg (not_mem_single (N := 4) (b := 2) (show (0 : ℕ) ≠ 2 by omega))
  | ⟨1, _⟩ => exact if_neg (not_mem_single (N := 4) (b := 2) (show (1 : ℕ) ≠ 2 by omega))
  | ⟨2, _⟩ => exact if_pos (List.mem_singleton.mpr (Fin.ext rfl))
  | ⟨3, _⟩ => exact if_neg (not_mem_single (N := 4) (b := 2) (show (3 : ℕ) ≠ 2 by omega))

end Cert.ConcatAt
-- ==== Proof.ReferenceScore.lean ====
/-
  The reference program read as mathematics.

  The reference lays the three parts of a query (relation, first argument, second argument), each a row
  of 128 numbers, side by side into one row of 384, and likewise the three parts of every fact; it takes
  the squared norm of each such row and the inner product of every query row with every fact row, forms
  `(‖q‖² − 2·⟨q, f⟩) + ‖f‖²` clamped below at zero, applies `d ↦ exp (−d / 2)` and, for every query,
  takes the greatest of these scores over the 65536 facts.

  A sum over the 384 columns of a joined row is the sum of the three sums over the 128 columns of its
  parts, so the norm and the inner product are the part-by-part ones of the specification, and the
  maximum from −∞ over the facts is the supremum of the scores: the reference's value at a query `b` is
  the best score of the distances from `b` to every fact.
-/
import proofs.«158915_j20306605375522_2_alg».proof.Proof.Gen.ReferenceIdeal.Read
import proofs.«158915_j20306605375522_2_alg».proof.Proof.NearestFactSpec
import proofs.«158915_j20306605375522_2_alg».proof.Proof.LibConcatAt
import Idealize.ShloMosaic.Lib.ValueIdx
import Idealize.ShloMosaic.PureOps.Ideal.Laws
import Idealize.ShloMosaic.PureOps.Reduce

noncomputable section

open scoped BigOperators

namespace Cert.ReferenceIdeal.Score

open Cert.ReferenceIdeal Cert.ReferenceIdeal.Gen Cert.ReferenceIdeal.Read Idealize.ShloMosaic Idealize.ShloMosaic.ValueIdx

/-- A sum over 384 consecutive terms is the sum of its three consecutive blocks of 128 terms. -/
theorem sum_three_blocks {β : Type*} [AddCommMonoid β] (g : Fin 384 → β) :
    ∑ j : Fin 384, g j
      = (∑ k : Fin 128, g ⟨k.val, by omega⟩ + ∑ k : Fin 128, g ⟨128 + k.val, by omega⟩)
          + ∑ k : Fin 128, g ⟨256 + k.val, by omega⟩ := by
  have h1 := Fin.sum_univ_add (M := β) (a := 128 + 128) (b := 128) g
  have h2 := Fin.sum_univ_add (M := β) (a := 128) (b := 128) fun i => g (Fin.castAdd 128 i)
  exact h1.trans (congrArg (· + _) h2)

section Query
variable (x0 x1 x2 : (⟨S2048x128, .f32⟩ : BufTy).Contents (Elt Ideal))

/-- The joined query row, in its first 128 columns, is the relation part. -/
theorem query_at0 (b : Fin 2048) (k : Fin 128) :
    val_main_v0 (F := Ideal) x0 x1 x2 (ix2 b ⟨k.val, by omega⟩) = x0 (ix2 b k) :=
  Cert.ConcatAt.cols_piece (t0 := 2048) (t1 := 384) [⟨S2048x128, x0⟩, ⟨S2048x128, x1⟩, ⟨S2048x128, x2⟩]
    concatenates_S2048x128_S2048x128_S2048x128_S2048x384_d1 b ⟨k.val, by omega⟩ 0 (by simp) (m := 128) x0 rfl 0 rfl k
    (by simp)

/-- The joined query row, in its next 128 columns, is the first-argument part. -/
theorem query_at1 (b : Fin 2048) (k : Fin 128) :
    val_main_v0 (F := Ideal) x0 x1 x2 (ix2 b ⟨128 + k.val, by omega⟩) = x1 (ix2 b k) :=
  Cert.ConcatAt.cols_piece (t0 := 2048) (t1 := 384) [⟨S2048x128, x0⟩, ⟨S2048x128, x1⟩, ⟨S2048x128, x2⟩]
    concatenates_S2048x128_S2048x128_S2048x128_S2048x384_d1 b ⟨128 + k.val, by omega⟩ 1 (by simp) (m := 128) x1 rfl 128 rfl k
    rfl

/-- The joined query row, in its last 128 columns, is the second-argument part. -/
theorem query_at2 (b : Fin 2048) (k : Fin 128) :
    val_main_v0 (F := Ideal) x0 x1 x2 (ix2 b ⟨256 + k.val, by omega⟩) = x2 (ix2 b k) :=
  Cert.ConcatAt.cols_piece (t0 := 2048) (t1 := 384) [⟨S2048x128, x0⟩, ⟨S2048x128, x1⟩, ⟨S2048x128, x2⟩]
    concatenates_S2048x128_S2048x128_S2048x128_S2048x384_d1 b ⟨256 + k.val, by omega⟩ 2 (by simp) (m := 128) x2 rfl 256 rfl k
    rfl

/-- The squared norm of the joined query row is the part-by-part squared norm of the query. -/
theorem query_normSq (b : Fin 2048) :
    val_main_v3 (F := Ideal) x0 x1 x2 (ix1 b)
      = NearestFact.normSq3 (fun k : Fin 128 => x0 (ix2 b k)) (fun k => x1 (ix2 b k)) (fun k => x2 (ix2 b k)) := by
  have e : ∀ j : Fin 384, idx_main_v3 (ix1 b) j = ix2 b j := fun j => funext fun a => by
    match a with
    | ⟨0, _⟩ => rfl
    | ⟨1, _⟩ => rfl
  rw [val_main_v3_apply, val_main_cst_apply]
  simp only [val_main_v2_apply, e, Ideal.ofBits_def, Ideal.mulf_def, Ideal.ofBits_zero_f32, zero_add]
  rw [sum_three_blocks]
  simp only [query_at0, query_at1, query_at2]
  rfl

end Query

section Facts
variable (x3 x4 x5 : (⟨S65536x128, .f32⟩ : BufTy).Contents (Elt Ideal))

/-- A joined fact row, in its first 128 columns, is the relation part. -/
theorem fact_at0 (f : Fin 65536) (k : Fin 128) :
    val_main_v1 (F := Ideal) x3 x4 x5 (ix2 f ⟨k.val, by omega⟩) = x3 (ix2 f k) :=
  Cert.ConcatAt.cols_piece (t0 := 65536) (t1 := 384) [⟨S65536x128, x3⟩, ⟨S65536x128, x4⟩, ⟨S65536x128, x5⟩]
    concatenates_S65536x128_S65536x128_S65536x128_S65536x384_d1 f ⟨k.val, by omega⟩ 0 (by simp) (m := 128) x3 rfl 0 rfl k
    (by simp)

/-- A joined fact row, in its next 128 columns, is the first-argument part. -/
theorem fact_at1 (f : Fin 65536) (k : Fin 128) :
    val_main_v1 (F := Ideal) x3 x4 x5 (ix2 f ⟨128 + k.val, by omega⟩) = x4 (ix2 f k) :=
  Cert.ConcatAt.cols_piece (t0 := 65536) (t1 := 384) [⟨S65536x128, x3⟩, ⟨S65536x128, x4⟩, ⟨S65536x128, x5⟩]
    concatenates_S65536x128_S65536x128_S65536x128_S65536x384_d1 f ⟨128 + k.val, by omega⟩ 1 (by simp) (m := 128) x4 rfl 128 rfl k
    rfl

/-- A joined fact row, in its last 128 columns, is the second-argument part. -/
theorem fact_at2 (f : Fin 65536) (k : Fin 128) :
    val_main_v1 (F := Ideal) x3 x4 x5 (ix2 f ⟨256 + k.val, by omega⟩) = x5 (ix2 f k) :=
  Cert.ConcatAt.cols_piece (t0 := 65536) (t1 := 384) [⟨S65536x128, x3⟩, ⟨S65536x128, x4⟩, ⟨S65536x128, x5⟩]
    concatenates_S65536x128_S65536x128_S65536x128_S65536x384_d1 f ⟨256 + k.val, by omega⟩ 2 (by simp) (m := 128) x5 rfl 256 rfl k
    rfl

/-- The squared norm of a joined fact row is the part-by-part squared norm of the fact. -/
theorem fact_normSq (f : Fin 65536) :
    val_main_v6 (F := Ideal) x3 x4 x5 (ix1 f)
      = NearestFact.normSq3 (fun k : Fin 128 => x3 (ix2 f k)) (fun k => x4 (ix2 f k)) (fun k => x5 (ix2 f k)) := by
  have e : ∀ j : Fin 384, idx_main_v6 (ix1 f) j = ix2 f j := fun j => funext fun a => by
    match a with
    | ⟨0, _⟩ => rfl
    | ⟨1, _⟩ => rfl
  rw [val_main_v6_apply, val_main_cst_0_apply]
  simp only [val_main_v5_apply, e, Ideal.ofBits_def, Ideal.mulf_def, Ideal.ofBits_zero_f32, zero_add]
  rw [sum_three_blocks]
  simp only [fact_at0, fact_at1, fact_at2]
  rfl

end Facts

section Score
variable (x0 x1 x2 : (⟨S2048x128, .f32⟩ : BufTy).Contents (Elt Ideal))
variable (x3 x4 x5 : (⟨S65536x128, .f32⟩ : BufTy).Contents (Elt Ideal))

/-- The inner product of a joined query row with a joined fact row is the part-by-part inner product. -/
theorem dot_at (b : Fin 2048) (f : Fin 65536) :
    val_main_v7 (F := Ideal) x0 x1 x2 x3 x4 x5 (ix2 b f)
      = NearestFact.dot3 (fun k : Fin 128 => x0 (ix2 b k)) (fun k => x1 (ix2 b k)) (fun k => x2 (ix2 b k))
          (fun k => x3 (ix2 f k)) (fun k => x4 (ix2 f k)) (fun k => x5 (ix2 f k)) := by
  have el : ∀ j : Fin 384, lidx_main_v7 (ix2 b f) j = ix2 b j := fun j => funext fun a => by
    match a with
    | ⟨0, _⟩ => rfl
    | ⟨1, _⟩ => rfl
  have er : ∀ j : Fin 384, ridx_main_v7 (ix2 b f) j = ix2 f j := fun j => funext fun a => by
    match a with
    | ⟨0, _⟩ => rfl
    | ⟨1, _⟩ => rfl
  rw [val_main_v7_apply]
  simp only [el, er]
  rw [sum_three_blocks]
  simp only [query_at0, query_at1, query_at2, fact_at0, fact_at1, fact_at2]
  rfl

/-- The reference's clamped squared distance between query `b` and fact `f`:
    `max ((‖q‖² − 2·⟨q, f⟩) + ‖f‖²) 0` with the norms and the inner product taken part by part. -/
theorem dist_at (b : Fin 2048) (f : Fin 65536) :
    val_main_v16 (F := Ideal) x0 x1 x2 x3 x4 x5 (ix2 b f)
      = NearestFact.dist (fun k : Fin 128 => x0 (ix2 b k)) (fun k => x1 (ix2 b k)) (fun k => x2 (ix2 b k))
          (fun k => x3 (ix2 f k)) (fun k => x4 (ix2 f k)) (fun k => x5 (ix2 f k)) := by
  have eb : idx_main_v4 (idx_main_v10 (ix2 b f)) = ix1 b := funext fun a => by
    match a with
    | ⟨0, _⟩ => rfl
  have ef : idx_main_v12 (idx_main_v13 (ix2 b f)) = ix1 f := funext fun a => by
    match a with
    | ⟨0, _⟩ => rfl
  rw [val_main_v16_apply, val_main_v14_apply, val_main_v11_apply, val_main_v10_apply, val_main_v4_apply, eb, query_normSq,
    val_main_v9_apply, val_main_v8_apply, val_main_cst_1_apply, dot_at, val_main_v13_apply, val_main_v12_apply, ef, fact_normSq,
    val_main_v15_apply, val_main_cst_2_apply]
  rfl

/-- The reference's score of fact `f` for query `b`: `exp (−d / 2)` of their clamped squared distance `d`. -/
theorem score_at (b : Fin 2048) (f : Fin 65536) :
    val_main_v20 (F := Ideal) x0 x1 x2 x3 x4 x5 (ix2 b f)
      = Ideal.exp (Ideal.div (-(NearestFact.dist (fun k : Fin 128 => x0 (ix2 b k)) (fun k => x1 (ix2 b k)) (fun k => x2 (ix2 b k))
          (fun k => x3 (ix2 f k)) (fun k => x4 (ix2 f k)) (fun k => x5 (ix2 f k)))) NearestFact.two) := by
  rw [val_main_v20_apply, val_main_v19_apply, val_main_v17_apply, dist_at, val_main_v18_apply, val_main_cst_3_apply]
  rfl

/-- The reference's value at query `b`: the maximum, from −∞, over the 65536 facts of the score of each — the
    supremum over the facts `f` of `exp (−d(b, f) / 2)`, where `d(b, f)` is the clamped squared distance between
    the three-part query `b` and the three-part fact `f`. -/
theorem reference_apply (b : Fin 2048) :
    val_main_v21 (F := Ideal) x0 x1 x2 x3 x4 x5 (ix1 b)
      = NearestFact.bestScore fun f : Fin 65536 => NearestFact.dist (fun k : Fin 128 => x0 (ix2 b k)) (fun k => x1 (ix2 b k)) (fun k => x2 (ix2 b k))
          (fun k => x3 (ix2 f k)) (fun k => x4 (ix2 f k)) (fun k => x5 (ix2 f k)) := by
  have h : S2048x65536.Reduces [1] S2048 := by decide
  have el : ∀ f : Fin 65536, h.lift (ix1 b) f = ix2 b f := fun f => funext fun a => Fin.ext (by
    match a with
    | ⟨0, _⟩ => rfl
    | ⟨1, _⟩ => rfl)
  have hbot : FloatOps.ofBits (F := Ideal) .f32 0xFF800000#32 = (⊥ : EReal) := by simp [Ideal.ofBits, Ideal.ieee]
  unfold val_main_v21
  rw [Host.reduce_eq_fold_single FloatOps.maximumf _ _ reducesTo_S2048x65536_S2048_d1 h h_S_ (ix1 b),
    val_main_cst_4_apply, hbot]
  unfold NearestFact.bestScore Finset.sup
  refine Finset.fold_congr fun f _ => ?_
  exact (congrArg (val_main_v20 (F := Ideal) x0 x1 x2 x3 x4 x5) (el f)).trans (score_at x0 x1 x2 x3 x4 x5 b f)

end Score

end Cert.ReferenceIdeal.Score

end
-- ==== Proof.lean ====
/-
  A Gaussian-kernel nearest-fact score: for each of 2048 queries, the greatest over 65536 facts of
  exp (−d² / 2), where d² = ‖q‖² − 2·⟨q, f⟩ + ‖f‖² clamped below at zero and a query or fact is the
  concatenation of three 128-long parts.

  The reference computes the score of every (query, fact) pair and takes the greatest per query. The
  kernel walks a 2 × 64 grid of (query tile, fact tile) pairs, keeps for each query the LEAST clamped
  distance seen so far, and applies exp (d · (−1/2)) once, after the last fact tile. Since
  d ↦ exp (−d / 2) is decreasing on the extended reals, the score of the least distance is the greatest
  score; norms and inner products of concatenated rows are sums over the three parts; and the narrowing
  of the facts to a shorter float format is the identity on the extended reals. No finiteness of the
  inputs is needed for any of this.
-/
import proofs.«158915_j20306605375522_2_alg».proof.Defs
import proofs.«158915_j20306605375522_2_alg».proof.Proof.Gen.Kernel
import proofs.«158915_j20306605375522_2_alg».proof.Proof.Gen.Kernel.Frame
import proofs.«158915_j20306605375522_2_alg».proof.Proof.Gen.KernelIdeal
import proofs.«158915_j20306605375522_2_alg».proof.Proof.Gen.KernelIdeal.Frame
import proofs.«158915_j20306605375522_2_alg».proof.Proof.Gen.ReferenceIdeal
import proofs.«158915_j20306605375522_2_alg».proof.Proof.Gen.Pre_finite_inputs
import proofs.«158915_j20306605375522_2_alg».proof.Proof.Gen.ReferenceIdeal.Run
import proofs.«158915_j20306605375522_2_alg».proof.Proof.Gen.ReferenceIdeal.Read
import proofs.«158915_j20306605375522_2_alg».proof.Proof.KernelRun
import proofs.«158915_j20306605375522_2_alg».proof.Proof.ReferenceScore
import Idealize.ShloMosaic.Lib.ValueIdx
import Idealize.ShloMosaic.Adequacy
import Idealize.ShloMosaic.Init

noncomputable section

namespace Cert.Proof

open Idealize.ShloMosaic Idealize.SL.Sem Idealize.ShloMosaic.ValueIdx

/-- The kernel as printed runs, nothing faults, and its arguments end unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs return, at every query, the best score over all facts of the
    same clamped distances of the same arguments. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2.1,
    (hagree c).2.2.2.2.1, (hagree c).2.2.2.2.2]
  refine funext fun i => ?_
  obtain ⟨b, rfl⟩ : ∃ b : Fin 2048, i = ix1 b := ⟨i 0, eq_ix1 i⟩
  exact Cert.ReferenceIdeal.Score.reference_apply _ _ _ _ _ _ b

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
